-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S64x1024 : Shape := ⟨2, ![64, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S32x2048x1024 .f32) (main_arg1 : FVec F S64x1024 .f32) (main_arg2 : FVec F S64x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  main_v13
-- ==== Kernel.lean ====
abbrev S32x2048x1024 : Shape := ⟨3, ![32, 2048, 1024]⟩
abbrev S64x1024 : Shape := ⟨2, ![64, 1024]⟩
abbrev S32x64x1024 : Shape := ⟨3, ![32, 64, 1024]⟩
abbrev S1x512x1024 : Shape := ⟨3, ![1, 512, 1024]⟩
abbrev S1x64x1024 : Shape := ⟨3, ![1, 64, 1024]⟩
abbrev S64x1 : Shape := ⟨2, ![64, 1]⟩
abbrev S512x1024 : Shape := ⟨2, ![512, 1024]⟩
abbrev S512 : Shape := ⟨1, ![512]⟩
abbrev S512x1 : Shape := ⟨2, ![512, 1]⟩
abbrev S512x64 : Shape := ⟨2, ![512, 64]⟩
abbrev S64 : Shape := ⟨1, ![64]⟩
abbrev S1x64 : Shape := ⟨2, ![1, 64]⟩
abbrev S1 : Shape := ⟨1, ![1]⟩
abbrev S1x1 : Shape := ⟨2, ![1, 1]⟩
abbrev S32x65536 : Shape := ⟨2, ![32, 65536]⟩

abbrev nBuf : Space → Nat
  | .hbm => 5
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S64x1024, .f32⟩
  | .hbm, ⟨2, _⟩ => ⟨S64x1024, .f32⟩
  | .hbm, ⟨3, _⟩ => ⟨S32x64x1024, .f32⟩
  | .hbm, ⟨4, _⟩ => ⟨S32x65536, .f32⟩
  | .local _ .vmem, ⟨0, _⟩ => ⟨S1x512x1024, .f32⟩
  | .local _ .vmem, ⟨1, _⟩ => ⟨S1x512x1024, .f32⟩
  | .local _ .vmem, ⟨2, _⟩ => ⟨S64x1024, .f32⟩
  | .local _ .vmem, ⟨3, _⟩ => ⟨S64x1024, .f32⟩
  | .local _ .vmem, ⟨4, _⟩ => ⟨S1x64x1024, .f32⟩
  | .local _ .vmem, ⟨5, _⟩ => ⟨S1x64x1024, .f32⟩
  | .local _ .vmem, ⟨6, _⟩ => ⟨S64x1024, .f32⟩
  | .local _ .vmem, ⟨7, _⟩ => ⟨S64x1, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_19 : BitVec 32 := 0#32
  let v43 : BitVec 1 := Scalar.cmpi .ne v42 c0_i32_19
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  reduces_S512x64_S512 : S512x64.Reduces [1] S512
  broadcasts_S512x1_S512x64 : S512x1.Broadcasts S512x64
  reduces_S512x64_S64 : S512x64.Reduces [0] S64
  shapeCasts_S64_S1x64 : S64.ShapeCasts S1x64
  transposes_S1x64_p1_0_S64x1 : S1x64.Transposes [1, 0] S64x1
  broadcasts_S64x1_S64x1024 : S64x1.Broadcasts S64x1024
  reduces_S64x1024_S64 : S64x1024.Reduces [1] S64
  shapeCasts_S64_S64x1 : S64.ShapeCasts S64x1
  reduces_S64x1_S1 : S64x1.Reduces [0] S1
  shapeCasts_S1_S1x1 : S1.ShapeCasts S1x1
  broadcasts_S1x1_S64x1024 : S1x1.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  shapeCasts_S32x64x1024_S32x65536 : S32x64x1024.ShapeCasts S32x65536
  dot_S512x1024_S64x1024_S512x64_1_1_0_0_n_n_wf : DotDims.WF S512x1024 S64x1024 S512x64 [1] [1] [0] [0] [] []
  dot_S512x64_S512x1024_S64x1024_0_0_1_1_n_n_wf : DotDims.WF S512x64 S512x1024 S64x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x2048x1024.size a
  hwx0_0 : ∀ i : grid0.Coords, EltTy.bits .f32 = 32 ∨ (Rect.block (s := S32x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1024.size a ≤ S32x64x1024.size a
  hwx0_3 : ∀ i : grid0.Coords, EltTy.bits .f32 = 32 ∨ (Rect.block (s := S32x64x1024) S1x64x1024.size (cc0_transform_3 i) (hinb0_3 i)).WholeWords (EltTy.packing .f32)

variable [Facts₀]

def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf
def dot_S512x64_S512x1024_S64x1024_0_0_1_1_n_n : DotDims S512x64 S512x1024 S64x1024 where
  lhsContracting := [0]
  rhsContracting := [0]
  lhsNonContracting := [1]
  rhsNonContracting := [1]
  lhsBatch := []
  rhsBatch := []
  wf := dot_S512x64_S512x1024_S64x1024_0_0_1_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x2048x1024 : Shape := ⟨3, ![32, 2048, 1024]⟩
abbrev S64x1024 : Shape := ⟨2, ![64, 1024]⟩
abbrev S_ : Shape := ⟨0, ![]⟩
abbrev S32x2048 : Shape := ⟨2, ![32, 2048]⟩
abbrev S32x2048x1 : Shape := ⟨3, ![32, 2048, 1]⟩
abbrev S32x2048x64 : Shape := ⟨3, ![32, 2048, 64]⟩
abbrev S32x64x1024 : Shape := ⟨3, ![32, 64, 1024]⟩
abbrev S32x64 : Shape := ⟨2, ![32, 64]⟩
abbrev S32x64x1 : Shape := ⟨3, ![32, 64, 1]⟩
abbrev S1x64x1024 : Shape := ⟨3, ![1, 64, 1024]⟩
abbrev S32x65536 : Shape := ⟨2, ![32, 65536]⟩
abbrev S32 : Shape := ⟨1, ![32]⟩
abbrev S32x1 : Shape := ⟨2, ![32, 1]⟩

abbrev nBuf : Space → Nat
  | .hbm => 58
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S64x1024, .f32⟩
  | .hbm, ⟨2, _⟩ => ⟨S64x1024, .f32⟩
  | .hbm, ⟨3, _⟩ => ⟨S32x2048x1024, .f32⟩
  | .hbm, ⟨4, _⟩ => ⟨S_, .f32⟩
  | .hbm, ⟨5, _⟩ => ⟨S32x2048, .f32⟩
  | .hbm, ⟨6, _⟩ => ⟨S32x2048x1, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S32x2048x1024, .f32⟩
  | .hbm, ⟨12, _⟩ => ⟨S32x2048x1024, .f32⟩
  | .hbm, ⟨13, _⟩ => ⟨S32x2048x64, .f32⟩
  | .hbm, ⟨14, _⟩ => ⟨S_, .f32⟩
  | .hbm, ⟨15, _⟩ => ⟨S32x2048, .f32⟩
  | .hbm, ⟨16, _⟩ => ⟨S_, .f32⟩
  | .hbm, ⟨17, _⟩ => ⟨S32x2048, .f32⟩
  | .hbm, ⟨18, _⟩ => ⟨S32x2048, .f32⟩
  | .hbm, ⟨19, _⟩ => ⟨S32x2048x1, .f32⟩
  | .hbm, ⟨20, _⟩ => ⟨S32x2048x64, .f32⟩
  | .hbm, ⟨21, _⟩ => ⟨S32x2048x64, .f32⟩
  | .hbm, ⟨22, _⟩ => ⟨S32x2048x64, .f32⟩
  | .hbm, ⟨23, _⟩ => ⟨S_, .f32⟩
  | .hbm, ⟨24, _⟩ => ⟨S32x2048, .f32⟩
  | .hbm, ⟨25, _⟩ => ⟨S32x2048x1, .f32⟩
  | .hbm, ⟨26, _⟩ => ⟨S32x2048x64, .f32⟩
  | .hbm, ⟨27, _⟩ => ⟨S32x2048x64, .f32⟩
  | .hbm, ⟨28, _⟩ => ⟨S32x64x1024, .f32⟩
  | .hbm, ⟨29, _⟩ => ⟨S_, .f32⟩
  | .hbm, ⟨30, _⟩ => ⟨S32x64, .f32⟩
  | .hbm, ⟨31, _⟩ => ⟨S32x64x1, .f32⟩
  | .hbm, ⟨32, _⟩ => ⟨S1x64x1024, .f32⟩
  | .hbm, ⟨33, _⟩ => ⟨S32x64x1024, .f32⟩
  | .hbm, ⟨34, _⟩ => ⟨S32x64x1024, .f32⟩
  | .hbm, ⟨35, _⟩ => ⟨S32x64x1024, .f32⟩
  | .hbm, ⟨36, _⟩ => ⟨S32x64x1024, .f32⟩
  | .hbm, ⟨37, _⟩ => ⟨S32x64x1024, .f32⟩
  | .hbm, ⟨38, _⟩ => ⟨S_, .f32⟩
  | .hbm, ⟨39, _⟩ => ⟨S32x64, .f32⟩
  | .hbm, ⟨40, _⟩ => ⟨S32x64x1, .f32⟩
  | .hbm, ⟨41, _⟩ => ⟨S32x64x1, .f32⟩
  | .hbm, ⟨42, _⟩ => ⟨S_, .f32⟩
  | .hbm, ⟨43, _⟩ => ⟨S32x64x1, .f32⟩
  | .hbm, ⟨44, _⟩ => ⟨S32x64x1, .f32⟩
  | .hbm, ⟨45, _⟩ => ⟨S32x64x1024, .f32⟩
  | .hbm, ⟨46, _⟩ => ⟨S32x64x1024, .f32⟩
  | .hbm, ⟨47, _⟩ => ⟨S32x65536, .f32⟩
  | .hbm, ⟨48, _⟩ => ⟨S32x65536, .f32⟩
  | .hbm, ⟨49, _⟩ => ⟨S_, .f32⟩
  | .hbm, ⟨50, _⟩ => ⟨S32, .f32⟩
  | .hbm, ⟨51, _⟩ => ⟨S32x1, .f32⟩
  | .hbm, ⟨52, _⟩ => ⟨S32x1, .f32⟩
  | .hbm, ⟨53, _⟩ => ⟨S_, .f32⟩
  | .hbm, ⟨54, _⟩ => ⟨S32x1, .f32⟩
  | .hbm, ⟨55, _⟩ => ⟨S32x1, .f32⟩
  | .hbm, ⟨56, _⟩ => ⟨S32x65536, .f32⟩
  | .hbm, ⟨57, _⟩ => ⟨S32x65536, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]

class Facts₀ : Prop where
  reducesTo_S32x2048x1024_S32x2048_d2 : S32x2048x1024.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x1024_0_1_2 : S32x2048x1.BroadcastsInDim S32x2048x1024 (![0, 1, 2] : Fin 3 → Fin S32x2048x1024.rank)
  reducesTo_S32x2048x64_S32x2048_d2 : S32x2048x64.ReducesTo [2] S32x2048
  bcast_S_S32x2048 : S_.BroadcastsInDim S32x2048 (![] : Fin 0 → Fin S32x2048.rank)
  bcast_S32x2048x1_S32x2048x64_0_1_2 : S32x2048x1.BroadcastsInDim S32x2048x64 (![0, 1, 2] : Fin 3 → Fin S32x2048x64.rank)
  reducesTo_S32x2048x64_S32x64_d1 : S32x2048x64.ReducesTo [1] S32x64
  bcast_S32x64_S32x64x1_0_1 : S32x64.BroadcastsInDim S32x64x1 (![0, 1] : Fin 2 → Fin S32x64x1.rank)
  bcast_S64x1024_S1x64x1024_1_2 : S64x1024.BroadcastsInDim S1x64x1024 (![1, 2] : Fin 2 → Fin S1x64x1024.rank)
  bcast_S32x64x1_S32x64x1024_0_1_2 : S32x64x1.BroadcastsInDim S32x64x1024 (![0, 1, 2] : Fin 3 → Fin S32x64x1024.rank)
  bcast_S1x64x1024_S32x64x1024_0_1_2 : S1x64x1024.BroadcastsInDim S32x64x1024 (![0, 1, 2] : Fin 3 → Fin S32x64x1024.rank)
  reducesTo_S32x64x1024_S32x64_d2 : S32x64x1024.ReducesTo [2] S32x64
  bcast_S_S32x64x1 : S_.BroadcastsInDim S32x64x1 (![] : Fin 0 → Fin S32x64x1.rank)
  shapeCasts_S32x64x1024_S32x65536 : S32x64x1024.ShapeCasts S32x65536
  reducesTo_S32x65536_S32_d1 : S32x65536.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x65536_0_1 : S32x1.BroadcastsInDim S32x65536 (![0, 1] : Fin 2 → Fin S32x65536.rank)
  dot_S32x2048x1024_S64x1024_S32x2048x64_2_1_01_0_n_n_wf : DotDims.WF S32x2048x1024 S64x1024 S32x2048x64 [2] [1] [0, 1] [0] [] []
  dot_S32x2048x64_S32x2048x1024_S32x64x1024_1_1_2_2_0_0_wf : DotDims.WF S32x2048x64 S32x2048x1024 S32x64x1024 [1] [1] [2] [2] [0] [0]

variable [Facts₀]

def dot_S32x2048x1024_S64x1024_S32x2048x64_2_1_01_0_n_n : DotDims S32x2048x1024 S64x1024 S32x2048x64 where
  lhsContracting := [2]
  rhsContracting := [1]
  lhsNonContracting := [0, 1]
  rhsNonContracting := [0]
  lhsBatch := []
  rhsBatch := []
  wf := dot_S32x2048x1024_S64x1024_S32x2048x64_2_1_01_0_n_n_wf
def dot_S32x2048x64_S32x2048x1024_S32x64x1024_1_1_2_2_0_0 : DotDims S32x2048x64 S32x2048x1024 S32x64x1024 where
  lhsContracting := [1]
  rhsContracting := [1]
  lhsNonContracting := [2]
  rhsNonContracting := [2]
  lhsBatch := [0]
  rhsBatch := [0]
  wf := dot_S32x2048x64_S32x2048x1024_S32x64x1024_1_1_2_2_0_0_wf

class Facts : Prop extends Facts₀ where

variable [Facts]
-- ==== Proof.Spec.lean ====
/-
  The function both programs compute, written once over the extended reals.

  For one batch entry, a frame is a row `v : Fin n → EReal`.  A frame is scaled by its clamped Euclidean norm
  (`unit`), scored against the cluster weights (`logit`), and softly assigned to the clusters (`assign`: the
  exponentials of the scores less their maximum, over their sum).  Over all frames `X m` of the entry the
  assignment-weighted frames and the assignments themselves are summed (`accum`, `asum`); the residual against the
  centroids (`raw`) is scaled row by row by its clamped norm (`vlad`) and then, as one long vector, by its clamped
  norm again (`outF`).

  The two programs differ only in how the sums are arranged: one sums the frames tile by tile and the squares row
  by row, the other all at once.  Addition on the extended reals is commutative and associative, so the
  rearrangements (`partialSum_four`, `sum_flat`) hold with no finiteness assumption.
-/
import Mathlib
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The clamp of every norm: the single-precision word nearest 1e-12. -/
abbrev eps : EReal := Ideal.ofBits .f32 0x2B8CBCCC#32
/-- The value a running maximum starts from: the word of minus infinity. -/
abbrev ninf : EReal := Ideal.ofBits .f32 0xFF800000#32

section Row
variable {n K : ℕ}

/-- The clamped Euclidean norm of a row. -/
def nrm (v : Fin n → EReal) : EReal := max (Ideal.sqrt (∑ d, v d * v d)) eps
/-- A row over its clamped norm. -/
def unit (v : Fin n → EReal) (d : Fin n) : EReal := Ideal.div (v d) (nrm v)
/-- The score of a scaled row against cluster `k`. -/
def logit (W : Fin K → Fin n → EReal) (v : Fin n → EReal) (k : Fin K) : EReal := ∑ d, unit v d * W k d
/-- The maximum of the scores, from minus infinity. -/
def rowmax (l : Fin K → EReal) : EReal := (Finset.univ : Finset (Fin K)).fold max ninf l
/-- The soft assignment of scores: exponentials of the scores less their maximum, over their sum. -/
def soft (l : Fin K → EReal) (k : Fin K) : EReal :=
  Ideal.div (Ideal.exp (l k - rowmax l)) (∑ k', Ideal.exp (l k' - rowmax l))
/-- The soft assignment of a row to cluster `k`. -/
def assign (W : Fin K → Fin n → EReal) (v : Fin n → EReal) (k : Fin K) : EReal := soft (logit W v) k

/-- Starting the maximum at minus infinity and then comparing with minus infinity once more changes nothing. -/
theorem max_ninf_rowmax (l : Fin K → EReal) : max ninf (rowmax l) = rowmax l := by
  apply max_eq_right
  unfold rowmax
  rw [Finset.le_fold_max]
  exact Or.inl le_rfl

end Row

section Batch
variable {M n K : ℕ}

/-- The assignment-weighted sum of the scaled frames. -/
def accum (W : Fin K → Fin n → EReal) (X : Fin M → Fin n → EReal) (k : Fin K) (d : Fin n) : EReal :=
  ∑ m, assign W (X m) k * unit (X m) d
/-- The total assignment to each cluster. -/
def asum (W : Fin K → Fin n → EReal) (X : Fin M → Fin n → EReal) (k : Fin K) : EReal := ∑ m, assign W (X m) k
/-- The residual against the centroids. -/
def raw (W C : Fin K → Fin n → EReal) (X : Fin M → Fin n → EReal) (k : Fin K) (d : Fin n) : EReal :=
  accum W X k d - asum W X k * C k d
/-- Each residual row over its clamped norm. -/
def vlad (W C : Fin K → Fin n → EReal) (X : Fin M → Fin n → EReal) (k : Fin K) (d : Fin n) : EReal :=
  unit (raw W C X k) d
/-- The clamped norm of all the scaled residual rows as one vector, its squares summed row by row. -/
def gnorm (W C : Fin K → Fin n → EReal) (X : Fin M → Fin n → EReal) : EReal :=
  max (Ideal.sqrt (∑ k, ∑ d, vlad W C X k d * vlad W C X k d)) eps
/-- The descriptor of one batch entry. -/
def outF (W C : Fin K → Fin n → EReal) (X : Fin M → Fin n → EReal) (k : Fin K) (d : Fin n) : EReal :=
  Ideal.div (vlad W C X k d) (gnorm W C X)

end Batch

/-! ## Tiles of 512 frames -/

/-- Frame `r` of tile `j` among 2048 frames (taken modulo 2048, so that it is total). -/
def rowN (j r : ℕ) : Fin 2048 := ⟨(512 * j + r) % 2048, Nat.mod_lt _ (by norm_num)⟩

/-- The sum of `g` over the 512 frames of tile `j`. -/
def tileSum (g : Fin 2048 → EReal) (j : ℕ) : EReal := ∑ r : Fin 512, g (rowN j r.val)
/-- The sum of `g` over the first `n` tiles. -/
def partialSum (g : Fin 2048 → EReal) (n : ℕ) : EReal := ∑ j ∈ Finset.range n, tileSum g j

theorem partialSum_one (g : Fin 2048 → EReal) : partialSum g 1 = tileSum g 0 := by
  unfold partialSum; rw [Finset.sum_range_one]

theorem partialSum_succ (g : Fin 2048 → EReal) (n : ℕ) : partialSum g (n + 1) = partialSum g n + tileSum g n := by
  unfold partialSum; rw [Finset.sum_range_succ]

/-- A function of the frames read at any natural number, modulo 2048. -/
def atNat (g : Fin 2048 → EReal) (m : ℕ) : EReal := g ⟨m % 2048, Nat.mod_lt _ (by norm_num)⟩

/-- Four tiles are all 2048 frames. -/
theorem partialSum_four (g : Fin 2048 → EReal) : partialSum g 4 = ∑ m, g m := by
  have h1 : ∑ m, g m = ∑ m ∈ Finset.range (512 + 512 + 512 + 512), atNat g m := by
    rw [← Fin.sum_univ_eq_sum_range (atNat g) 2048]
    exact Finset.sum_congr rfl fun m _ => congrArg g (Fin.ext (Nat.mod_eq_of_lt m.isLt).symm)
  have h2 : ∀ j, tileSum g j = ∑ r ∈ Finset.range 512, atNat g (512 * j + r) := fun j => by
    unfold tileSum
    rw [← Fin.sum_univ_eq_sum_range (fun r => atNat g (512 * j + r)) 512]
    rfl
  rw [h1, Finset.sum_range_add, Finset.sum_range_add, Finset.sum_range_add]
  unfold partialSum
  rw [Finset.sum_range_succ, Finset.sum_range_succ, Finset.sum_range_succ, Finset.sum_range_one, h2, h2, h2, h2]
  have e0 : ∀ r, 512 * 0 + r = r := fun r => by omega
  have e1 : ∀ r, 512 * 1 + r = 512 + r := fun r => by omega
  have e2 : ∀ r, 512 * 2 + r = 512 + 512 + r := fun r => by omega
  have e3 : ∀ r, 512 * 3 + r = 512 + 512 + 512 + r := fun r => by omega
  simp only [e0, e1, e2, e3]

/-! ## A long vector's sum, row by row -/

/-- A sum over the 65536 positions of a [64, 1024] array laid out row after row is the sum over its rows of the
    sums along them. -/
theorem sum_flat (h : Fin 64 → Fin 1024 → EReal) (kk : Fin 65536 → Fin 64) (dd : Fin 65536 → Fin 1024)
    (hk : ∀ j, (kk j).val = j.val / 1024) (hd : ∀ j, (dd j).val = j.val % 1024) :
    ∑ j, h (kk j) (dd j) = ∑ k, ∑ d, h k d := by
  rw [← Fintype.sum_prod_type' (f := h)]
  rw [← Equiv.sum_comp (finProdFinEquiv (m := 64) (n := 1024)) (fun j => h (kk j) (dd j))]
  refine Finset.sum_congr rfl fun p _ => ?_
  obtain ⟨k, d⟩ := p
  have hv : (finProdFinEquiv (m := 64) (n := 1024) (k, d)).val = d.val + 1024 * k.val := rfl
  have ek : kk (finProdFinEquiv (m := 64) (n := 1024) (k, d)) = k := Fin.ext (by
    rw [hk, hv]; have := d.isLt; omega)
  have ed : dd (finProdFinEquiv (m := 64) (n := 1024) (k, d)) = d := Fin.ext (by
    rw [hd, hv]; have := d.isLt; omega)
  rw [ek, ed]

/-! ## The whole result -/

/-- The frames of batch entry `b` of the input array. -/
def frames (x : (⟨3, ![32, 2048, 1024]⟩ : Shape).Idx → EReal) (b : Fin 32) (m : Fin 2048) (d : Fin 1024) : EReal :=
  x (ix3 b m d)
/-- A [64, 1024] array by row and column. -/
def mat (w : (⟨2, ![64, 1024]⟩ : Shape).Idx → EReal) (k : Fin 64) (d : Fin 1024) : EReal := w (ix2 k d)

/-- The result array: entry `(b, 1024 k + d)` is entry `(k, d)` of batch entry `b`'s descriptor. -/
def G (x : (⟨3, ![32, 2048, 1024]⟩ : Shape).Idx → EReal) (w c : (⟨2, ![64, 1024]⟩ : Shape).Idx → EReal) :
    (⟨2, ![32, 65536]⟩ : Shape).Idx → EReal := fun i =>
  outF (mat w) (mat c) (frames x ⟨(i 0).val, idx2_lt0 i⟩)
    ⟨(i 1).val / 1024, by have := idx2_lt1 i; omega⟩ ⟨(i 1).val % 1024, Nat.mod_lt _ (by norm_num)⟩

end Cert.Spec

end
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPay.lean ====
/-
  The kernel body's arithmetic, read at an index over the extended reals.

  One grid point holds a tile of 512 frames.  The body scales each frame by its clamped norm, scores it against
  the cluster weights, turns the scores into soft assignments, adds the assignment-weighted sum of the tile's scaled
  frames into one accumulator and the tile's assignment totals into another; at the last tile it subtracts the
  totals times the centroids, scales each row of the residual by its clamped norm and then everything by the
  clamped norm of the whole.  Each lemma reads one of those values at explicit coordinates as the matching function
  of the specification.  A change of float format is the identity here, a lane sum is a finite sum, a matrix
  product into the zero accumulator is a finite sum of products, and a running maximum from minus infinity is a
  fold of `max`.
-/
import proofs.«176846_j63977832841863_1_alg».proof.Proof.Gen.KernelIdeal.Skeleton
import proofs.«176846_j63977832841863_1_alg».proof.Proof.Spec
import proofs.«176846_j63977832841863_1_alg».proof.Proof.LibRowSum
import proofs.«176846_j63977832841863_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelPay

open Cert.KernelIdeal Cert.KernelIdeal.Gen Idealize.ShloMosaic Idealize.ShloMosaic.ValueIdx

/-! ## Rows of a block, and the generic row operations read at an index -/

/-- Row `r` of a [1, 512, 1024] block. -/
def brow (v3 : Vec Ideal S1x512x1024 .f32) (r : Fin 512) (d : Fin 1024) : EReal := v3 (ix3 (0 : Fin 1) r d)

section Generic
variable {a b : ℕ}

/-- The maximum of an [a, b] vector along its lanes, read at row `p`: the running maximum of the row from minus
    infinity. -/
theorem rowmax_apply (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p) = Spec.rowmax (fun k => src (ix2 p k)) :=
  (Ideal.multiReduction_maximumf_single src 0xFF800000#32 h hφ hacc (ix1 p)).trans
    (congrArg (fun f => (Finset.univ : Finset (Fin b)).fold max Spec.ninf f)
      (funext fun k => congrArg src (funext fun ax => Fin.ext (by
        match ax with
        | ⟨0, _⟩ => rfl
        | ⟨1, _⟩ => rfl))))

/-- The sum of an [a, b] vector down its columns, read at column `q`. -/
theorem colsum_apply (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (funext fun ax => Fin.ext (by
      match ax with
      | ⟨0, _⟩ => rfl
      | ⟨1, _⟩ => rfl)))

/-- The clamped norm of each row of an [a, b] vector, kept as a column and spread back over the lanes. -/
theorem rownorm_apply (v : FVec Ideal ⟨2, ![a, b]⟩ .f32)
    (h1 : (⟨2, ![a, b]⟩ : Shape).Reduces [1] ⟨1, ![a]⟩) (hφ : FKind.Formats .f32)
    (hacc : (0x00000000#32 : BitVec 32) = FKind.add.neutral .f32 hφ)
    (h2 : (⟨1, ![a]⟩ : Shape).ShapeCasts ⟨2, ![a, 1]⟩) (h3 : (⟨2, ![a, 1]⟩ : Shape).Broadcasts ⟨2, ![a, b]⟩)
    (r : Fin a) (d : Fin b) :
    broadcastTo ⟨2, ![a, b]⟩
        (maximumf (sqrt (shapeCast ⟨2, ![a, 1]⟩ (multiReduction .add [1] ⟨1, ![a]⟩ (mulf v v) 0x00000000#32 h1 hφ hacc) h2))
          (broadcast ⟨2, ![a, 1]⟩ (FloatOps.ofBits .f32 0x2B8CBCCC#32))) h3 (ix2 r d)
      = Spec.nrm (fun d' => v (ix2 r d')) :=
  (LibColumn.broadcastTo_a1_ab_apply _ h3 r d).trans
    (congrArg (fun z => max (Ideal.sqrt z) Spec.eps)
      ((LibColumn.shapeCast_a_a1_apply _ h2 r 0).trans
        (LibRowSum.multiReduction_add_lanes_apply (mulf v v) 0x00000000#32 h1 hφ hacc r)))

/-- A vector over its rows' clamped norms. -/
theorem unitrows_apply (v : FVec Ideal ⟨2, ![a, b]⟩ .f32)
    (h1 : (⟨2, ![a, b]⟩ : Shape).Reduces [1] ⟨1, ![a]⟩) (hφ : FKind.Formats .f32)
    (hacc : (0x00000000#32 : BitVec 32) = FKind.add.neutral .f32 hφ)
    (h2 : (⟨1, ![a]⟩ : Shape).ShapeCasts ⟨2, ![a, 1]⟩) (h3 : (⟨2, ![a, 1]⟩ : Shape).Broadcasts ⟨2, ![a, b]⟩)
    (r : Fin a) (d : Fin b) :
    divf v (broadcastTo ⟨2, ![a, b]⟩
        (maximumf (sqrt (shapeCast ⟨2, ![a, 1]⟩ (multiReduction .add [1] ⟨1, ![a]⟩ (mulf v v) 0x00000000#32 h1 hφ hacc) h2))
          (broadcast ⟨2, ![a, 1]⟩ (FloatOps.ofBits .f32 0x2B8CBCCC#32))) h3) (ix2 r d)
      = Spec.unit (fun d' => v (ix2 r d')) d :=
  congrArg (fun z => Ideal.div (v (ix2 r d)) z) (rownorm_apply v h1 hφ hacc h2 h3 r d)

/-- The soft assignment of each row of an [a, b] vector of scores. -/
theorem softrows_apply (L : FVec Ideal ⟨2, ![a, b]⟩ .f32)
    (h1 : (⟨2, ![a, b]⟩ : Shape).Reduces [1] ⟨1, ![a]⟩) (hφ : FKind.Formats .f32)
    (haccM : (0xFF800000#32 : BitVec 32) = FKind.maximumf.neutral .f32 hφ)
    (haccA : (0x00000000#32 : BitVec 32) = FKind.add.neutral .f32 hφ)
    (h2 : (⟨1, ![a]⟩ : Shape).ShapeCasts ⟨2, ![a, 1]⟩) (h3 : (⟨2, ![a, 1]⟩ : Shape).Broadcasts ⟨2, ![a, b]⟩)
    (r : Fin a) (k : Fin b) :
    divf
        (exp (subf L (broadcastTo ⟨2, ![a, b]⟩
          (shapeCast ⟨2, ![a, 1]⟩ (multiReduction .maximumf [1] ⟨1, ![a]⟩ L 0xFF800000#32 h1 hφ haccM) h2) h3)))
        (broadcastTo ⟨2, ![a, b]⟩
          (shapeCast ⟨2, ![a, 1]⟩
            (multiReduction .add [1] ⟨1, ![a]⟩
              (exp (subf L (broadcastTo ⟨2, ![a, b]⟩
                (shapeCast ⟨2, ![a, 1]⟩ (multiReduction .maximumf [1] ⟨1, ![a]⟩ L 0xFF800000#32 h1 hφ haccM) h2) h3)))
              0x00000000#32 h1 hφ haccA) h2) h3)
        (ix2 r k)
      = Spec.soft (fun k' => L (ix2 r k')) k := by
  have hmax : ∀ k', broadcastTo ⟨2, ![a, b]⟩
      (shapeCast ⟨2, ![a, 1]⟩ (multiReduction .maximumf [1] ⟨1, ![a]⟩ L 0xFF800000#32 h1 hφ haccM) h2) h3 (ix2 r k')
        = Spec.rowmax (fun k'' => L (ix2 r k'')) := fun k' =>
    (LibColumn.broadcastTo_a1_ab_apply _ h3 r k').trans
      ((LibColumn.shapeCast_a_a1_apply _ h2 r 0).trans (rowmax_apply L h1 hφ haccM r))
  have he : ∀ k', exp (subf L (broadcastTo ⟨2, ![a, b]⟩
      (shapeCast ⟨2, ![a, 1]⟩ (multiReduction .maximumf [1] ⟨1, ![a]⟩ L 0xFF800000#32 h1 hφ haccM) h2) h3)) (ix2 r k')
        = Ideal.exp (L (ix2 r k') - Spec.rowmax (fun k'' => L (ix2 r k''))) := fun k' =>
    congrArg (fun z => Ideal.exp (L (ix2 r k') - z)) (hmax k')
  exact congrArg₂ Ideal.div (he k)
    ((LibColumn.broadcastTo_a1_ab_apply _ h3 r k).trans
      ((LibColumn.shapeCast_a_a1_apply _ h2 r 0).trans
        ((LibRowSum.multiReduction_add_lanes_apply _ 0x00000000#32 h1 hφ haccA r).trans
          (Finset.sum_congr rfl fun k' _ => he k'))))

end Generic

/-! ## The two matrix products -/

local notation "D1" => dot_S512x1024_S64x1024_S512x64_1_1_0_0_n_n
local notation "D2" => dot_S512x64_S512x1024_S64x1024_0_0_1_1_n_n

theorem d1_lhs0 (i : S512x64.Idx) (q : DotDims.contr D1 |>.Idx) : (DotDims.lhsIdx D1 i q 0).val = (i 0).val := by
  unfold DotDims.lhsIdx
  rw [dif_neg (show ¬(0 : Fin S512x1024.rank) ∈ DotDims.lhsBatch D1 by decide),
    dif_pos (show (0 : Fin S512x1024.rank) ∈ DotDims.lhsNonContracting D1 by decide)]
  rfl
theorem d1_rhs0 (i : S512x64.Idx) (q : DotDims.contr D1 |>.Idx) : (DotDims.rhsIdx D1 i q 0).val = (i 1).val := by
  unfold DotDims.rhsIdx
  rw [dif_neg (show ¬(0 : Fin S64x1024.rank) ∈ DotDims.rhsBatch D1 by decide),
    dif_pos (show (0 : Fin S64x1024.rank) ∈ DotDims.rhsNonContracting D1 by decide)]
  rfl
theorem d2_lhs1 (i : S64x1024.Idx) (q : DotDims.contr D2 |>.Idx) : (DotDims.lhsIdx D2 i q 1).val = (i 0).val := by
  unfold DotDims.lhsIdx
  rw [dif_neg (show ¬(1 : Fin S512x64.rank) ∈ DotDims.lhsBatch D2 by decide),
    dif_pos (show (1 : Fin S512x64.rank) ∈ DotDims.lhsNonContracting D2 by decide)]
  rfl
theorem d2_rhs1 (i : S64x1024.Idx) (q : DotDims.contr D2 |>.Idx) : (DotDims.rhsIdx D2 i q 1).val = (i 1).val := by
  unfold DotDims.rhsIdx
  rw [dif_neg (show ¬(1 : Fin S512x1024.rank) ∈ DotDims.rhsBatch D2 by decide),
    dif_pos (show (1 : Fin S512x1024.rank) ∈ DotDims.rhsNonContracting D2 by decide)]
  rfl

/-- Scaled frames [512, 1024] against weights [64, 1024], both contracted on their second axis, into the zero
    accumulator: at (r, k) the sum over `d` of the products. -/
theorem scores_apply (A : FVec Ideal S512x1024 .bf16) (B : FVec Ideal S64x1024 .bf16) (r : Fin 512) (k : Fin 64) :
    matmul D1 none A B (constant S512x64 .f32 0x00000000#32) (ix2 r k) = ∑ d : Fin 1024, A (ix2 r d) * B (ix2 k d) := by
  refine (Ideal.matmul_constant_zero_apply D1 none A B (ix2 r k)).trans ?_
  rw [← Equiv.sum_comp (contrEquiv1 D1 1024 rfl rfl).symm]
  refine Finset.sum_congr rfl fun q _ => ?_
  have hk := contrEquiv1_symm_val D1 1024 rfl rfl q
  have el : DotDims.lhsIdx D1 (ix2 r k) ((contrEquiv1 D1 1024 rfl rfl).symm q) = ix2 r q := funext fun ax => Fin.ext (by
    match ax with
    | ⟨0, _⟩ => exact d1_lhs0 _ _
    | ⟨1, _⟩ => exact (DotDims.lhsIdx_val_of_single D1 rfl _ _).trans hk)
  have er : DotDims.rhsIdx D1 (ix2 r k) ((contrEquiv1 D1 1024 rfl rfl).symm q) = ix2 k q := funext fun ax => Fin.ext (by
    match ax with
    | ⟨0, _⟩ => exact d1_rhs0 _ _
    | ⟨1, _⟩ => exact (DotDims.rhsIdx_val_of_single D1 rfl _ _).trans hk)
  rw [el, er]

/-- Assignments [512, 64] against scaled frames [512, 1024], both contracted on their first axis (the frames), into
    the zero accumulator: at (k, d) the sum over the frames `r` of the products. -/
theorem weighted_apply (A : FVec Ideal S512x64 .bf16) (B : FVec Ideal S512x1024 .bf16) (k : Fin 64) (d : Fin 1024) :
    matmul D2 none A B (constant S64x1024 .f32 0x00000000#32) (ix2 k d) = ∑ r : Fin 512, A (ix2 r k) * B (ix2 r d) := by
  refine (Ideal.matmul_constant_zero_apply D2 none A B (ix2 k d)).trans ?_
  rw [← Equiv.sum_comp (contrEquiv1 D2 512 rfl rfl).symm]
  refine Finset.sum_congr rfl fun q _ => ?_
  have hk := contrEquiv1_symm_val D2 512 rfl rfl q
  have el : DotDims.lhsIdx D2 (ix2 k d) ((contrEquiv1 D2 512 rfl rfl).symm q) = ix2 q k := funext fun ax => Fin.ext (by
    match ax with
    | ⟨0, _⟩ => exact (DotDims.lhsIdx_val_of_single D2 rfl _ _).trans hk
    | ⟨1, _⟩ => exact d2_lhs1 _ _)
  have er : DotDims.rhsIdx D2 (ix2 k d) ((contrEquiv1 D2 512 rfl rfl).symm q) = ix2 q d := funext fun ax => Fin.ext (by
    match ax with
    | ⟨0, _⟩ => exact (DotDims.rhsIdx_val_of_single D2 rfl _ _).trans hk
    | ⟨1, _⟩ => exact d2_rhs1 _ _)
  rw [el, er]

/-! ## The body's values read at an index -/

/-- The scaled frames of a block: frame `r` over its clamped norm. -/
theorem pay5_apply (v3 : Vec Ideal S1x512x1024 .f32) (r : Fin 512) (d : Fin 1024) :
    k0_pay5 (F := Ideal) v3 (ix2 r d) = Spec.unit (brow v3 r) d := by
  have h4 : (fun d' => shapeCast S512x1024 v3 shapeCasts_S1x512x1024_S512x1024 (ix2 r d')) = brow v3 r :=
    funext fun d' => shapeCast_1ab_ab_apply v3 _ r d'
  unfold k0_pay5
  (try dsimp only)
  refine (unitrows_apply (shapeCast S512x1024 v3 shapeCasts_S1x512x1024_S512x1024) _ _ _ _ _ r d).trans ?_
  rw [h4]

/-- The soft assignments of a block's frames. -/
theorem pay6_apply (v3 : Vec Ideal S1x512x1024 .f32) (v14 : Vec Ideal S64x1024 .f32) (r : Fin 512) (k : Fin 64) :
    k0_pay6 (F := Ideal) v3 v14 (ix2 r k) = Spec.assign (Spec.mat v14) (brow v3 r) k := by
  have hl : (fun k' => matmul D1 none (k0_pay5 (F := Ideal) v3) (truncf .bf16 v14 bitsLt_bf16_f32)
      (constant S512x64 .f32 0x00000000#32) (ix2 r k')) = Spec.logit (Spec.mat v14) (brow v3 r) := funext fun k' =>
    (scores_apply _ _ r k').trans (Finset.sum_congr rfl fun d _ => congrArg (· * v14 (ix2 k' d)) (pay5_apply v3 r d))
  unfold k0_pay6
  (try dsimp only)
  refine (softrows_apply _ _ _ _ _ _ _ r k).trans ?_
  rw [hl]
  rfl

/-- The accumulator after a block: what it held plus the assignment-weighted sum of the block's scaled frames. -/
theorem pay7_apply (v3 : Vec Ideal S1x512x1024 .f32) (v14 v27 : Vec Ideal S64x1024 .f32) (k : Fin 64) (d : Fin 1024) :
    k0_pay7 (F := Ideal) v3 v14 v27 (ix2 k d)
      = v27 (ix2 k d) + ∑ r : Fin 512, Spec.assign (Spec.mat v14) (brow v3 r) k * Spec.unit (brow v3 r) d := by
  unfold k0_pay7
  (try dsimp only)
  rw [shapeCast_self]
  refine congrArg (v27 (ix2 k d) + ·) ((weighted_apply _ _ k d).trans (Finset.sum_congr rfl fun r _ => ?_))
  exact congrArg₂ (· * ·) (pay6_apply v3 v14 r k) (pay5_apply v3 r d)

/-- The assignment totals after a block: what they held plus the block's column sums of the assignments. -/
theorem pay1_apply (v3 : Vec Ideal S1x512x1024 .f32) (v14 : Vec Ideal S64x1024 .f32) (v33 : Vec Ideal S64x1 .f32)
    (k : Fin 64) (u : Fin 1) :
    k0_pay1 (F := Ideal) v33 (k0_pay8 (F := Ideal) v3 v14) (ix2 k u)
      = v33 (ix2 k u) + ∑ r : Fin 512, Spec.assign (Spec.mat v14) (brow v3 r) k := by
  unfold k0_pay1 k0_pay8
  (try dsimp only)
  rw [shapeCast_self]
  refine congrArg (v33 (ix2 k u) + ·) ?_
  exact (transpose_ix2_apply _ _ k u).trans ((shapeCast_a_1a_apply _ _ u k).trans
    ((colsum_apply _ _ _ _ _ k).trans (Finset.sum_congr rfl fun r _ => pay6_apply v3 v14 r k)))

/-- The accumulator's reset value. -/
theorem pay3_apply (i : S64x1024.Idx) : k0_pay3 (F := Ideal) i = 0 := by
  unfold k0_pay3
  (try dsimp only)
  rw [shapeCast_self]
  exact Ideal.ofBits_zero_f32

/-- The assignment totals' reset value. -/
theorem pay4_apply (i : S64x1.Idx) : k0_pay4 (F := Ideal) i = 0 := by
  unfold k0_pay4
  (try dsimp only)
  rw [shapeCast_self]
  exact Ideal.ofBits_zero_f32

/-! ## The last step: rows over their norms, then everything over the norm of the whole -/

section Generic2
variable {a b : ℕ}

/-- A [1, 1] vector spread over [a, b] reads everywhere its one entry. -/
theorem broadcastTo_11_ab_apply {α : Type} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An [a, b] vector over the clamped norm of all its entries, the squares summed along the rows first and then
    down the column of row sums. -/
theorem gnormed_apply (V : FVec Ideal ⟨2, ![a, b]⟩ .f32)
    (h1 : (⟨2, ![a, b]⟩ : Shape).Reduces [1] ⟨1, ![a]⟩) (hφ : FKind.Formats .f32)
    (hacc : (0x00000000#32 : BitVec 32) = FKind.add.neutral .f32 hφ)
    (h2 : (⟨1, ![a]⟩ : Shape).ShapeCasts ⟨2, ![a, 1]⟩)
    (h4 : (⟨2, ![a, 1]⟩ : Shape).Reduces [0] ⟨1, ![1]⟩) (h5 : (⟨1, ![1]⟩ : Shape).ShapeCasts ⟨2, ![1, 1]⟩)
    (h6 : (⟨2, ![1, 1]⟩ : Shape).Broadcasts ⟨2, ![a, b]⟩) (k : Fin a) (d : Fin b) :
    divf V (broadcastTo ⟨2, ![a, b]⟩ (maximumf (sqrt (shapeCast ⟨2, ![1, 1]⟩ (multiReduction .add [0] ⟨1, ![1]⟩ (shapeCast ⟨2, ![a, 1]⟩ (multiReduction .add [1] ⟨1, ![a]⟩ (mulf V V) 0x00000000#32 h1 hφ hacc) h2) 0x00000000#32 h4 hφ hacc) h5)) (broadcast ⟨2, ![1, 1]⟩ (FloatOps.ofBits .f32 0x2B8CBCCC#32))) h6) (ix2 k d)
      = Ideal.div (V (ix2 k d))
          (max (Ideal.sqrt (∑ k' : Fin a, ∑ d' : Fin b, V (ix2 k' d') * V (ix2 k' d'))) Spec.eps) :=
  congrArg (fun z => Ideal.div (V (ix2 k d)) z)
    ((broadcastTo_11_ab_apply _ h6 k d).trans
      (congrArg (fun z => max (Ideal.sqrt z) Spec.eps)
        ((shapeCast_a_1a_apply _ h5 (0 : Fin 1) (0 : Fin 1)).trans
          ((colsum_apply _ 0x00000000#32 h4 hφ hacc (0 : Fin 1)).trans
            (Finset.sum_congr rfl fun k' _ =>
              (LibColumn.shapeCast_a_a1_apply _ h2 k' (0 : Fin 1)).trans
                (LibRowSum.multiReduction_add_lanes_apply (mulf V V) 0x00000000#32 h1 hφ hacc k'))))))

/-- Rows over their clamped norms, and the result over the clamped norm of all of it. -/
theorem vladout_apply (R : FVec Ideal ⟨2, ![a, b]⟩ .f32)
    (h1 : (⟨2, ![a, b]⟩ : Shape).Reduces [1] ⟨1, ![a]⟩) (hφ : FKind.Formats .f32)
    (hacc : (0x00000000#32 : BitVec 32) = FKind.add.neutral .f32 hφ)
    (h2 : (⟨1, ![a]⟩ : Shape).ShapeCasts ⟨2, ![a, 1]⟩) (h3 : (⟨2, ![a, 1]⟩ : Shape).Broadcasts ⟨2, ![a, b]⟩)
    (h4 : (⟨2, ![a, 1]⟩ : Shape).Reduces [0] ⟨1, ![1]⟩) (h5 : (⟨1, ![1]⟩ : Shape).ShapeCasts ⟨2, ![1, 1]⟩)
    (h6 : (⟨2, ![1, 1]⟩ : Shape).Broadcasts ⟨2, ![a, b]⟩) (k : Fin a) (d : Fin b) :
    divf (divf R (broadcastTo ⟨2, ![a, b]⟩ (maximumf (sqrt (shapeCast ⟨2, ![a, 1]⟩ (multiReduction .add [1] ⟨1, ![a]⟩ (mulf R R) 0x00000000#32 h1 hφ hacc) h2)) (broadcast ⟨2, ![a, 1]⟩ (FloatOps.ofBits .f32 0x2B8CBCCC#32))) h3)) (broadcastTo ⟨2, ![a, b]⟩ (maximumf (sqrt (shapeCast ⟨2, ![1, 1]⟩ (multiReduction .add [0] ⟨1, ![1]⟩ (shapeCast ⟨2, ![a, 1]⟩ (multiReduction .add [1] ⟨1, ![a]⟩ (mulf (divf R (broadcastTo ⟨2, ![a, b]⟩ (maximumf (sqrt (shapeCast ⟨2, ![a, 1]⟩ (multiReduction .add [1] ⟨1, ![a]⟩ (mulf R R) 0x00000000#32 h1 hφ hacc) h2)) (broadcast ⟨2, ![a, 1]⟩ (FloatOps.ofBits .f32 0x2B8CBCCC#32))) h3)) (divf R (broadcastTo ⟨2, ![a, b]⟩ (maximumf (sqrt (shapeCast ⟨2, ![a, 1]⟩ (multiReduction .add [1] ⟨1, ![a]⟩ (mulf R R) 0x00000000#32 h1 hφ hacc) h2)) (broadcast ⟨2, ![a, 1]⟩ (FloatOps.ofBits .f32 0x2B8CBCCC#32))) h3))) 0x00000000#32 h1 hφ hacc) h2) 0x00000000#32 h4 hφ hacc) h5)) (broadcast ⟨2, ![1, 1]⟩ (FloatOps.ofBits .f32 0x2B8CBCCC#32))) h6) (ix2 k d)
      = Ideal.div (Spec.unit (fun d' => R (ix2 k d')) d)
          (max (Ideal.sqrt (∑ k' : Fin a, ∑ d' : Fin b,
            Spec.unit (fun d'' => R (ix2 k' d'')) d' * Spec.unit (fun d'' => R (ix2 k' d'')) d')) Spec.eps) := by
  have hV := fun k' d' => unitrows_apply R h1 hφ hacc h2 h3 k' d'
  refine (gnormed_apply (divf R (broadcastTo ⟨2, ![a, b]⟩ (maximumf (sqrt (shapeCast ⟨2, ![a, 1]⟩ (multiReduction .add [1] ⟨1, ![a]⟩ (mulf R R) 0x00000000#32 h1 hφ hacc) h2)) (broadcast ⟨2, ![a, 1]⟩ (FloatOps.ofBits .f32 0x2B8CBCCC#32))) h3)) h1 hφ hacc h2 h4 h5 h6 k d).trans ?_
  simp only [hV]

end Generic2

/-- The residual from the accumulator, the assignment totals and the centroids. -/
def rawOf (v44 : Vec Ideal S64x1024 .f32) (v45 : Vec Ideal S64x1 .f32) (v46 : Vec Ideal S64x1024 .f32)
    (k : Fin 64) (d : Fin 1024) : EReal :=
  v44 (ix2 k d) - v45 (ix2 k (0 : Fin 1)) * v46 (ix2 k d)

/-- What the last tile stores: the residual's rows over their clamped norms, over the clamped norm of all of them. -/
theorem pay2_apply (v44 : Vec Ideal S64x1024 .f32) (v45 : Vec Ideal S64x1 .f32) (v46 : Vec Ideal S64x1024 .f32)
    (u : Fin 1) (k : Fin 64) (d : Fin 1024) :
    k0_pay2 (F := Ideal) v44 v45 v46 (ix3 u k d)
      = Ideal.div (Spec.unit (rawOf v44 v45 v46 k) d)
          (max (Ideal.sqrt (∑ k' : Fin 64, ∑ d' : Fin 1024,
            Spec.unit (rawOf v44 v45 v46 k') d' * Spec.unit (rawOf v44 v45 v46 k') d')) Spec.eps) := by
  have hraw : ∀ k' : Fin 64, (fun d' : Fin 1024 =>
      (subf v44 (mulf (broadcastTo S64x1024 v45 broadcasts_S64x1_S64x1024) v46) : FVec Ideal S64x1024 .f32) (ix2 k' d'))
      = rawOf v44 v45 v46 k' := fun k' => funext fun d' => by
    show v44 (ix2 k' d') - broadcastTo S64x1024 v45 broadcasts_S64x1_S64x1024 (ix2 k' d') * v46 (ix2 k' d') = _
    rw [LibColumn.broadcastTo_a1_ab_apply]
    rfl
  unfold k0_pay2
  (try dsimp only)
  refine (shapeCast_ab_1ab_apply _ _ u k d).trans ((vladout_apply _ _ _ _ _ _ _ _ _ k d).trans ?_)
  simp only [hraw]

end Cert.KernelPay

end
-- ==== Proof.KernelPieces.lean ====
/-
  What each case of the body leaves behind, as the body's own values.

  The body carries two accumulators between grid points.  At the first tile of a batch entry it resets them and
  then adds the tile's contribution, so it leaves the contribution over zero; at the other tiles it leaves the
  contribution over what the tile before left; at the last tile it also stores the output block, computed from the
  accumulators it has just updated.  Every store covers its whole buffer, so what a buffer holds afterwards is the
  last store's value, and a load after a covering store reads that store's value.
-/
import proofs.«176846_j63977832841863_1_alg».proof.Proof.Gen.KernelIdeal.Frame
import Idealize.ShloMosaic.Lib.Pipeline.Value
import Idealize.ShloMosaic.Lib.Tactic

noncomputable section

namespace Cert.KernelPieces

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sB0 (c : Dev nD) (i : grid0.Coords) (arg2 : Memref sig .tc .vmem S1x512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S64x1 .f32) (harg7 : arg7.IsWhole) (hc0 : ¬cond0_0 i) (hc1 : ¬cond0_1 i) (x0 : Vec F S1x512x1024 .f32) (x1 : Vec F S64x1024 .f32) (x2 : Vec F S64x1024 .f32) (xs0 : Vec F S64x1024 .f32) (xs1 : Vec F S64x1 .f32) :
    sout0_B_0 c i arg2 harg2 arg3 harg3 arg4 harg4 arg5 harg5 arg6 harg6 arg7 harg7 hc0 hc1 x0 x1 x2 xs0 xs1 = k0_pay7 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  rw [View.canon_unit_zero hz2]
  simp only [View.readAt_eq_ld, harg2.read_unread, harg3.read_unread, harg4.read_unread, harg6.read_unread, harg7.read_unread, View.ld_unit_zero (S := S1x512x1024) hz3, View.ld_unit_zero (S := S64x1024) hz2, View.ld_unit_zero (S := S64x1) hz2]

theorem sB1 (c : Dev nD) (i : grid0.Coords) (arg2 : Memref sig .tc .vmem S1x512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S64x1 .f32) (harg7 : arg7.IsWhole) (hc0 : ¬cond0_0 i) (hc1 : ¬cond0_1 i) (x0 : Vec F S1x512x1024 .f32) (x1 : Vec F S64x1024 .f32) (x2 : Vec F S64x1024 .f32) (xs0 : Vec F S64x1024 .f32) (xs1 : Vec F S64x1 .f32) :
    sout0_B_1 c i arg2 harg2 arg3 harg3 arg4 harg4 arg5 harg5 arg6 harg6 arg7 harg7 hc0 hc1 x0 x1 x2 xs0 xs1 = k0_pay1 xs1 (k0_pay8 x0 x1) := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg6.read_unread, harg7.read_unread, View.ld_unit_zero (S := S1x512x1024) hz3, View.ld_unit_zero (S := S64x1024) hz2, View.ld_unit_zero (S := S64x1) hz2]

theorem sC0 (c : Dev nD) (i : grid0.Coords) (arg2 : Memref sig .tc .vmem S1x512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S64x1 .f32) (harg7 : arg7.IsWhole) (hc0 : ¬cond0_0 i) (hc1 : cond0_1 i) (x0 : Vec F S1x512x1024 .f32) (x1 : Vec F S64x1024 .f32) (x2 : Vec F S64x1024 .f32) (xs0 : Vec F S64x1024 .f32) (xs1 : Vec F S64x1 .f32) :
    sout0_C_0 c i arg2 harg2 arg3 harg3 arg4 harg4 arg5 harg5 arg6 harg6 arg7 harg7 hc0 hc1 x0 x1 x2 xs0 xs1 = k0_pay7 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  (try sl_unfold_words)
  rw [View.canon_unit_zero hz2]
  simp only [View.readAt_eq_ld, harg2.read_unread, harg3.read_unread, harg4.read_unread, harg6.read_unread, harg7.read_unread, View.ld_unit_zero (S := S1x512x1024) hz3, View.ld_unit_zero (S := S64x1024) hz2, View.ld_unit_zero (S := S64x1) hz2]

theorem sC1 (c : Dev nD) (i : grid0.Coords) (arg2 : Memref sig .tc .vmem S1x512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S64x1 .f32) (harg7 : arg7.IsWhole) (hc0 : ¬cond0_0 i) (hc1 : cond0_1 i) (x0 : Vec F S1x512x1024 .f32) (x1 : Vec F S64x1024 .f32) (x2 : Vec F S64x1024 .f32) (xs0 : Vec F S64x1024 .f32) (xs1 : Vec F S64x1 .f32) :
    sout0_C_1 c i arg2 harg2 arg3 harg3 arg4 harg4 arg5 harg5 arg6 harg6 arg7 harg7 hc0 hc1 x0 x1 x2 xs0 xs1 = k0_pay1 xs1 (k0_pay8 x0 x1) := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  (try sl_unfold_words)
  rw [View.canon_unit_zero hz2]
  simp only [View.readAt_eq_ld, harg2.read_unread, harg3.read_unread, harg4.read_unread, harg6.read_unread, harg7.read_unread, View.ld_unit_zero (S := S1x512x1024) hz3, View.ld_unit_zero (S := S64x1024) hz2, View.ld_unit_zero (S := S64x1) hz2]

theorem sA0 (c : Dev nD) (i : grid0.Coords) (arg2 : Memref sig .tc .vmem S1x512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S64x1 .f32) (harg7 : arg7.IsWhole) (hc0 : cond0_0 i) (hc1 : ¬cond0_1 i) (x0 : Vec F S1x512x1024 .f32) (x1 : Vec F S64x1024 .f32) (x2 : Vec F S64x1024 .f32) :
    sout0_A_0 c i arg2 harg2 arg3 harg3 arg4 harg4 arg5 harg5 arg6 harg6 arg7 harg7 hc0 hc1 x0 x1 x2 = k0_pay7 x0 x1 (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S64x1024) hz2, View.readCov_unit_zero (S := S64x1024) _ hz2]
  simp only [View.readAt_eq_ld, harg2.read_unread, harg3.read_unread, harg4.read_unread, harg6.read_unread, harg7.read_unread, View.ld_unit_zero (S := S1x512x1024) hz3, View.ld_unit_zero (S := S64x1024) hz2, View.ld_unit_zero (S := S64x1) hz2]

theorem sA1 (c : Dev nD) (i : grid0.Coords) (arg2 : Memref sig .tc .vmem S1x512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S64x1 .f32) (harg7 : arg7.IsWhole) (hc0 : cond0_0 i) (hc1 : ¬cond0_1 i) (x0 : Vec F S1x512x1024 .f32) (x1 : Vec F S64x1024 .f32) (x2 : Vec F S64x1024 .f32) :
    sout0_A_1 c i arg2 harg2 arg3 harg3 arg4 harg4 arg5 harg5 arg6 harg6 arg7 harg7 hc0 hc1 x0 x1 x2 = k0_pay1 (k0_pay4 (F := F)) (k0_pay8 x0 x1) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S64x1) hz2, View.readCov_unit_zero (S := S64x1) _ hz2]
  simp only [View.readAt_eq_ld, harg2.read_unread, harg3.read_unread, harg4.read_unread, harg6.read_unread, harg7.read_unread, View.ld_unit_zero (S := S1x512x1024) hz3, View.ld_unit_zero (S := S64x1024) hz2, View.ld_unit_zero (S := S64x1) hz2]

theorem oC3 (c : Dev nD) (i : grid0.Coords) (arg2 : Memref sig .tc .vmem S1x512x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S64x1 .f32) (harg7 : arg7.IsWhole) (hc0 : ¬cond0_0 i) (hc1 : cond0_1 i) (x0 : Vec F S1x512x1024 .f32) (x1 : Vec F S64x1024 .f32) (x2 : Vec F S64x1024 .f32) (xs0 : Vec F S64x1024 .f32) (xs1 : Vec F S64x1 .f32) :
    out0_C_3 c i arg2 harg2 arg3 harg3 arg4 harg4 arg5 harg5 arg6 harg6 arg7 harg7 hc0 hc1 x0 x1 x2 xs0 xs1 = k0_pay2 (k0_pay7 x0 x1 xs0) (k0_pay1 xs1 (k0_pay8 x0 x1)) x2 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz3, View.readCov_unit_zero (S := S64x1024) _ hz2, View.readCov_unit_zero (S := S64x1) _ hz2]
  simp only [View.readAt_eq_ld, harg2.read_unread, harg3.read_unread, harg4.read_unread, harg6.read_unread, harg7.read_unread, View.ld_unit_zero (S := S1x512x1024) hz3, View.ld_unit_zero (S := S64x1024) hz2, View.ld_unit_zero (S := S64x1) hz2]

end Cert.KernelPieces

end
-- ==== Proof.KernelBlocks.lean ====
/-
  The blocks the body is handed, as entries of the argument arrays.

  Grid point `t` is tile `t % 4` of batch entry `t / 4`: its block of the frames array is the 512 frames
  `512 (t % 4) + r` of that entry, and its blocks of the weights and the centroids are the whole arrays.
-/
import proofs.«176846_j63977832841863_1_alg».proof.Proof.Gen.KernelIdeal.Frame
import proofs.«176846_j63977832841863_1_alg».proof.Proof.Spec
import Idealize.ShloMosaic.Lib.Pipeline.Value
import Idealize.ShloMosaic.Lib.ValueIdx
import Idealize.ShloMosaic.Lib.Tactic

noncomputable section

open scoped BigOperators

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-- The batch entry of grid point `n` (taken modulo 32, so that it is total). -/
def batchOf (n : ℕ) : Fin 32 := ⟨n / 4 % 32, Nat.mod_lt _ (by norm_num)⟩

theorem idx_facts0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem idx_facts1 : ∀ t : Fin cfg0.N, win0_1.index t 0 = 0 ∧ win0_1.index t 1 = 0 :=
  (by decide +kernel : ∀ t : Fin grid0.N, win0_1.index t 0 = 0 ∧ win0_1.index t 1 = 0)
theorem idx_facts2 : ∀ t : Fin cfg0.N, win0_2.index t 0 = 0 ∧ win0_2.index t 1 = 0 :=
  (by decide +kernel : ∀ t : Fin grid0.N, win0_2.index t 0 = 0 ∧ win0_2.index t 1 = 0)

theorem blk0_apply (t : Fin cfg0.N) (u : Fin 1) (r : Fin 512) (d : Fin 1024) :
    (iblk m c 0 t : Vec Ideal S1x512x1024 .f32) (ix3 u r d)
      = Spec.frames (m ((c : Thread nD τ).loc main_arg0)) (batchOf t.val) (Spec.rowN (t.val % 4) r.val) d := by
  have hi := idx_facts0 t
  have hN : t.val < 128 := lt_of_lt_of_eq t.isLt (show cfg0.N = 128 from N_0)
  show V m c main_arg0 (((cfg0.win 0).blk t).view.emb (ix3 u r d)) = m ((c : Thread nD τ).loc main_arg0) _
  refine congrArg (m ((c : Thread nD τ).loc main_arg0)) (funext fun a => Fin.ext ?_)
  match a with
  | ⟨0, _⟩ =>
    show win0_0.index t 0 * 1 + 1 * u.val = t.val / 4 % 32
    rw [hi.1]; omega
  | ⟨1, _⟩ =>
    show win0_0.index t 1 * 512 + 1 * r.val = (512 * (t.val % 4) + r.val) % 2048
    rw [hi.2.1]; have := r.isLt; omega
  | ⟨2, _⟩ =>
    show win0_0.index t 2 * 1024 + 1 * d.val = d.val
    rw [hi.2.2]; omega

theorem blk1_apply (t : Fin cfg0.N) (k : Fin 64) (d : Fin 1024) :
    (iblk m c 1 t : Vec Ideal S64x1024 .f32) (ix2 k d) = m ((c : Thread nD τ).loc main_arg1) (ix2 k d) := by
  have hi := idx_facts1 t
  show V m c main_arg1 (((cfg0.win 1).blk t).view.emb (ix2 k d)) = m ((c : Thread nD τ).loc main_arg1) _
  refine congrArg (m ((c : Thread nD τ).loc main_arg1)) (funext fun a => Fin.ext ?_)
  match a with
  | ⟨0, _⟩ =>
    show win0_1.index t 0 * 64 + 1 * k.val = k.val
    rw [hi.1]; omega
  | ⟨1, _⟩ =>
    show win0_1.index t 1 * 1024 + 1 * d.val = d.val
    rw [hi.2]; omega

theorem blk2_apply (t : Fin cfg0.N) (k : Fin 64) (d : Fin 1024) :
    (iblk m c 2 t : Vec Ideal S64x1024 .f32) (ix2 k d) = m ((c : Thread nD τ).loc main_arg2) (ix2 k d) := by
  have hi := idx_facts2 t
  show V m c main_arg2 (((cfg0.win 2).blk t).view.emb (ix2 k d)) = m ((c : Thread nD τ).loc main_arg2) _
  refine congrArg (m ((c : Thread nD τ).loc main_arg2)) (funext fun a => Fin.ext ?_)
  match a with
  | ⟨0, _⟩ =>
    show win0_2.index t 0 * 64 + 1 * k.val = k.val
    rw [hi.1]; omega
  | ⟨1, _⟩ =>
    show win0_2.index t 1 * 1024 + 1 * d.val = d.val
    rw [hi.2]; omega

end Cert.KernelBlocks

end
-- ==== Proof.KernelInv.lean ====
/-
  What the two accumulators and the output block hold after each grid point.

  Grid point `t` is tile `t % 4` of batch entry `t / 4`.  After it the first accumulator holds, at (k, d), the
  sum over the frames of the entry's tiles 0 … t % 4 of assignment times scaled frame, and the second, at k, the sum
  of the assignments over the same frames: at the entry's first tile the body starts both from zero, afterwards
  from what the tile before left (an induction on the point).  After the entry's last tile the sums run over all
  2048 frames, and the output block holds the entry's descriptor.
-/
import proofs.«176846_j63977832841863_1_alg».proof.Proof.KernelPay
import proofs.«176846_j63977832841863_1_alg».proof.Proof.KernelPieces
import proofs.«176846_j63977832841863_1_alg».proof.Proof.KernelBlocks

noncomputable section

open scoped BigOperators

namespace Cert.KernelInv

open Cert.KernelIdeal Cert.KernelIdeal.Gen Idealize.ShloMosaic Idealize.ShloMosaic.TcCoe Idealize.SL.Sem
open Idealize.ShloMosaic.ValueIdx
open Cert.KernelBlocks Cert.KernelPay Cert.KernelPieces

variable (m : (ℓ : Loc nD τ sig) → Buf (Elt Ideal) ℓ) (c : Dev nD)

/-- The cluster weights by row and column. -/
abbrev Wm : Fin 64 → Fin 1024 → EReal := Spec.mat (m ((c : Thread nD τ).loc main_arg1))
/-- The centroids by row and column. -/
abbrev Cm : Fin 64 → Fin 1024 → EReal := Spec.mat (m ((c : Thread nD τ).loc main_arg2))
/-- The frames of batch entry `b`. -/
abbrev Xb (b : Fin 32) : Fin 2048 → Fin 1024 → EReal := Spec.frames (m ((c : Thread nD τ).loc main_arg0)) b

/-- What frame `mm` of entry `b` adds to the first accumulator at (k, d). -/
def gAcc (b : Fin 32) (k : Fin 64) (d : Fin 1024) (mm : Fin 2048) : EReal :=
  Spec.assign (Wm m c) (Xb m c b mm) k * Spec.unit (Xb m c b mm) d
/-- What frame `mm` of entry `b` adds to the second accumulator at k. -/
def gSum (b : Fin 32) (k : Fin 64) (mm : Fin 2048) : EReal := Spec.assign (Wm m c) (Xb m c b mm) k

theorem partialSum_zero (g : Fin 2048 → EReal) : Spec.partialSum g 0 = 0 := by
  unfold Spec.partialSum; rw [Finset.range_zero, Finset.sum_empty]

/-- Row `r` of the frames block at point `t` is frame `512 (t % 4) + r` of entry `t / 4`. -/
theorem brow0 (t : Fin cfg0.N) (r : Fin 512) :
    brow (iblk m c 0 t) r = Xb m c (batchOf t.val) (Spec.rowN (t.val % 4) r.val) :=
  funext fun d => blk0_apply m c t (0 : Fin 1) r d

/-- The weights block at any point is the weights array. -/
theorem mat1 (t : Fin cfg0.N) : Spec.mat (iblk m c 1 t) = Wm m c :=
  funext fun k => funext fun d => blk1_apply m c t k d

/-- The tile's contribution to the first accumulator. -/
theorem tile_acc (t : Fin cfg0.N) (k : Fin 64) (d : Fin 1024) :
    (∑ r : Fin 512, Spec.assign (Spec.mat (iblk m c 1 t)) (brow (iblk m c 0 t) r) k * Spec.unit (brow (iblk m c 0 t) r) d)
      = Spec.tileSum (gAcc m c (batchOf t.val) k d) (t.val % 4) := by
  unfold Spec.tileSum gAcc
  rw [mat1 m c t]
  exact Finset.sum_congr rfl fun r _ => by rw [brow0 m c t r]

/-- The tile's contribution to the second accumulator. -/
theorem tile_sum (t : Fin cfg0.N) (k : Fin 64) :
    (∑ r : Fin 512, Spec.assign (Spec.mat (iblk m c 1 t)) (brow (iblk m c 0 t) r) k)
      = Spec.tileSum (gSum m c (batchOf t.val) k) (t.val % 4) := by
  unfold Spec.tileSum gSum
  rw [mat1 m c t]
  exact Finset.sum_congr rfl fun r _ => by rw [brow0 m c t r]

/-- The accumulators after point `n`: the sums over the entry's tiles so far. -/
structure Inv (n : ℕ) (h : n < cfg0.N) : Prop where
  acc : ∀ (k : Fin 64) (d : Fin 1024),
    ((outsAt0 m c n h).2.1 : Vec Ideal S64x1024 .f32) (ix2 k d) = Spec.partialSum (gAcc m c (batchOf n) k d) (n % 4 + 1)
  tot : ∀ (k : Fin 64) (u : Fin 1),
    ((outsAt0 m c n h).2.2 : Vec Ideal S64x1 .f32) (ix2 k u) = Spec.partialSum (gSum m c (batchOf n) k) (n % 4 + 1)

/-- At an entry's first tile both accumulators hold the tile's contribution over zero. -/
theorem inv_A (t : Fin cfg0.N) (h0 : t.val % 4 = 0) : Inv m c t.val t.isLt := by
  have h1 : ¬t.val % 4 = 3 := by omega
  have e := outsAt0_A m c t h0 h1
  have e0 : (outsAt0 m c t.val t.isLt).2.1 = k0_pay7 (iblk m c 0 t) (iblk m c 1 t) (k0_pay3 (F := Ideal)) :=
    by rw [e]; dsimp only; exact (sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t))
  have e1 : (outsAt0 m c t.val t.isLt).2.2 = k0_pay1 (k0_pay4 (F := Ideal)) (k0_pay8 (iblk m c 0 t) (iblk m c 1 t)) :=
    by rw [e]; dsimp only; exact (sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t))
  constructor
  · intro k d
    rw [Spec.partialSum_succ]
    refine (congrFun e0 (ix2 k d)).trans ((pay7_apply (iblk m c 0 t) (iblk m c 1 t) (k0_pay3 (F := Ideal)) k d).trans ?_)
    refine congrArg₂ (· + ·) ?_ (tile_acc m c t k d)
    rw [pay3_apply, h0, partialSum_zero]
  · intro k u
    rw [Spec.partialSum_succ]
    refine (congrFun e1 (ix2 k u)).trans ((pay1_apply (iblk m c 0 t) (iblk m c 1 t) (k0_pay4 (F := Ideal)) k u).trans ?_)
    refine congrArg₂ (· + ·) ?_ (tile_sum m c t k)
    rw [pay4_apply, h0, partialSum_zero]

/-- A later tile of the same entry has the same batch entry as the tile before. -/
theorem batchOf_pred (n : ℕ) (h0 : ¬n % 4 = 0) : batchOf (n - 1) = batchOf n :=
  Fin.ext (by show (n - 1) / 4 % 32 = n / 4 % 32; omega)

/-- At a middle tile both accumulators hold the tile's contribution over what the tile before left. -/
theorem inv_B (t : Fin cfg0.N) (h0 : ¬t.val % 4 = 0) (h1 : ¬t.val % 4 = 3)
    (ih : Inv m c (t.val - 1) (Nat.lt_of_le_of_lt (Nat.sub_le _ _) t.isLt)) : Inv m c t.val t.isLt := by
  have e := outsAt0_B m c t h0 h1
  have e0 : (outsAt0 m c t.val t.isLt).2.1 = k0_pay7 (iblk m c 0 t) (iblk m c 1 t) (outsAt0 m c (t.val - 1) (Nat.lt_of_le_of_lt (Nat.sub_le _ _) t.isLt)).2.1 :=
    by rw [e]; dsimp only; exact (sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
  have e1 : (outsAt0 m c t.val t.isLt).2.2 = k0_pay1 (outsAt0 m c (t.val - 1) (Nat.lt_of_le_of_lt (Nat.sub_le _ _) t.isLt)).2.2 (k0_pay8 (iblk m c 0 t) (iblk m c 1 t)) :=
    by rw [e]; dsimp only; exact (sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
  have hj : (t.val - 1) % 4 + 1 = t.val % 4 := by omega
  constructor
  · intro k d
    rw [Spec.partialSum_succ]
    refine (congrFun e0 (ix2 k d)).trans ((pay7_apply (iblk m c 0 t) (iblk m c 1 t) (outsAt0 m c (t.val - 1) (Nat.lt_of_le_of_lt (Nat.sub_le _ _) t.isLt)).2.1 k d).trans ?_)
    refine congrArg₂ (· + ·) ?_ (tile_acc m c t k d)
    rw [ih.acc k d, hj, batchOf_pred t.val h0]
  · intro k u
    rw [Spec.partialSum_succ]
    refine (congrFun e1 (ix2 k u)).trans ((pay1_apply (iblk m c 0 t) (iblk m c 1 t) (outsAt0 m c (t.val - 1) (Nat.lt_of_le_of_lt (Nat.sub_le _ _) t.isLt)).2.2 k u).trans ?_)
    refine congrArg₂ (· + ·) ?_ (tile_sum m c t k)
    rw [ih.tot k u, hj, batchOf_pred t.val h0]

/-- At an entry's last tile the accumulators are updated in the same way. -/
theorem inv_C (t : Fin cfg0.N) (h0 : ¬t.val % 4 = 0) (h1 : t.val % 4 = 3)
    (ih : Inv m c (t.val - 1) (Nat.lt_of_le_of_lt (Nat.sub_le _ _) t.isLt)) : Inv m c t.val t.isLt := by
  have e := outsAt0_C m c t h0 h1
  have e0 : (outsAt0 m c t.val t.isLt).2.1 = k0_pay7 (iblk m c 0 t) (iblk m c 1 t) (outsAt0 m c (t.val - 1) (Nat.lt_of_le_of_lt (Nat.sub_le _ _) t.isLt)).2.1 :=
    by rw [e]; dsimp only; exact (sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
  have e1 : (outsAt0 m c t.val t.isLt).2.2 = k0_pay1 (outsAt0 m c (t.val - 1) (Nat.lt_of_le_of_lt (Nat.sub_le _ _) t.isLt)).2.2 (k0_pay8 (iblk m c 0 t) (iblk m c 1 t)) :=
    by rw [e]; dsimp only; exact (sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
  have hj : (t.val - 1) % 4 + 1 = t.val % 4 := by omega
  constructor
  · intro k d
    rw [Spec.partialSum_succ]
    refine (congrFun e0 (ix2 k d)).trans ((pay7_apply (iblk m c 0 t) (iblk m c 1 t) (outsAt0 m c (t.val - 1) (Nat.lt_of_le_of_lt (Nat.sub_le _ _) t.isLt)).2.1 k d).trans ?_)
    refine congrArg₂ (· + ·) ?_ (tile_acc m c t k d)
    rw [ih.acc k d, hj, batchOf_pred t.val h0]
  · intro k u
    rw [Spec.partialSum_succ]
    refine (congrFun e1 (ix2 k u)).trans ((pay1_apply (iblk m c 0 t) (iblk m c 1 t) (outsAt0 m c (t.val - 1) (Nat.lt_of_le_of_lt (Nat.sub_le _ _) t.isLt)).2.2 k u).trans ?_)
    refine congrArg₂ (· + ·) ?_ (tile_sum m c t k)
    rw [ih.tot k u, hj, batchOf_pred t.val h0]

/-- The accumulators after every point, by induction on the point. -/
theorem inv : ∀ (n : ℕ) (h : n < cfg0.N), Inv m c n h
  | 0, h => inv_A m c ⟨0, h⟩ rfl
  | n + 1, h => by
    by_cases h0 : (n + 1) % 4 = 0
    · exact inv_A m c ⟨n + 1, h⟩ h0
    · by_cases h1 : (n + 1) % 4 = 3
      · exact inv_C m c ⟨n + 1, h⟩ h0 h1 (inv n _)
      · exact inv_B m c ⟨n + 1, h⟩ h0 h1 (inv n _)

/-- After an entry's last tile the output block holds the entry's descriptor. -/
theorem out_C (t : Fin cfg0.N) (h0 : ¬t.val % 4 = 0) (h1 : t.val % 4 = 3) (u : Fin 1) (k : Fin 64) (d : Fin 1024) :
    ((outsAt0 m c t.val t.isLt).1 : Vec Ideal S1x64x1024 .f32) (ix3 u k d)
      = Spec.outF (Wm m c) (Cm m c) (Xb m c (batchOf t.val)) k d := by
  have hI := inv m c t.val t.isLt
  have e := outsAt0_C m c t h0 h1
  have e0 : (outsAt0 m c t.val t.isLt).2.1 = k0_pay7 (iblk m c 0 t) (iblk m c 1 t) (outsAt0 m c (t.val - 1) (Nat.lt_of_le_of_lt (Nat.sub_le _ _) t.isLt)).2.1 :=
    by rw [e]; dsimp only; exact (sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
  have e1 : (outsAt0 m c t.val t.isLt).2.2 = k0_pay1 (outsAt0 m c (t.val - 1) (Nat.lt_of_le_of_lt (Nat.sub_le _ _) t.isLt)).2.2 (k0_pay8 (iblk m c 0 t) (iblk m c 1 t)) :=
    by rw [e]; dsimp only; exact (sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
  have e2 : (outsAt0 m c t.val t.isLt).1
      = k0_pay2 (outsAt0 m c t.val t.isLt).2.1 (outsAt0 m c t.val t.isLt).2.2 (iblk m c 2 t) :=
    ((by rw [e]; dsimp only; exact (oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)) : (outsAt0 m c t.val t.isLt).1 = k0_pay2 (k0_pay7 (iblk m c 0 t) (iblk m c 1 t) (outsAt0 m c (t.val - 1) (Nat.lt_of_le_of_lt (Nat.sub_le _ _) t.isLt)).2.1) (k0_pay1 (outsAt0 m c (t.val - 1) (Nat.lt_of_le_of_lt (Nat.sub_le _ _) t.isLt)).2.2 (k0_pay8 (iblk m c 0 t) (iblk m c 1 t))) (iblk m c 2 t)).trans
      (congrArg₂ (fun a b => k0_pay2 a b (iblk m c 2 t)) e0.symm e1.symm)
  have hraw : ∀ k' : Fin 64, rawOf (outsAt0 m c t.val t.isLt).2.1 (outsAt0 m c t.val t.isLt).2.2 (iblk m c 2 t) k'
      = Spec.raw (Wm m c) (Cm m c) (Xb m c (batchOf t.val)) k' := fun k' => funext fun d' => by
    unfold rawOf
    rw [hI.acc k' d', hI.tot k' (0 : Fin 1), h1, Spec.partialSum_four, Spec.partialSum_four, blk2_apply m c t k' d']
    rfl
  refine (congrFun e2 (ix3 u k d)).trans
    ((pay2_apply (outsAt0 m c t.val t.isLt).2.1 (outsAt0 m c t.val t.isLt).2.2 (iblk m c 2 t) u k d).trans ?_)
  simp only [hraw]
  rfl

end Cert.KernelInv

end
-- ==== Proof.KernelRun.lean ====
/-
  The kernel's result array.

  The output block of a batch entry is written back once, after the entry's last tile, and the 32 blocks tile the
  [32, 64, 1024] array; so that array ends holding every entry's descriptor.  The program's one remaining line
  lays it out as [32, 65536], row after row, which is the specification's result.
-/
import proofs.«176846_j63977832841863_1_alg».proof.Proof.KernelInv
import Idealize.ShloMosaic.Lib.StableHlo.Run

noncomputable section

open scoped BigOperators

namespace Cert.KernelRun

open Cert.KernelIdeal Cert.KernelIdeal.Gen Idealize.ShloMosaic Idealize.ShloMosaic.TcCoe Idealize.SL.Sem
open Idealize.ShloMosaic.ValueIdx
open Idealize.ShloMosaic.Pipeline (Dat)
open Cert.KernelBlocks Cert.KernelInv

variable (m : (ℓ : Loc nD τ sig) → Buf (Elt Ideal) ℓ) (ρ : Dev nD → PrngReg) (c : Dev nD)

/-- A batch entry, a cluster and a feature from natural numbers (modulo the extents, so that they are total). -/
def fin32 (n : ℕ) : Fin 32 := ⟨n % 32, Nat.mod_lt _ (by norm_num)⟩
def fin64 (n : ℕ) : Fin 64 := ⟨n % 64, Nat.mod_lt _ (by norm_num)⟩
def fin1024 (n : ℕ) : Fin 1024 := ⟨n % 1024, Nat.mod_lt _ (by norm_num)⟩

/-- What the [32, 64, 1024] array ends holding: entry (b, k, d) of the descriptors. -/
def G3 : S32x64x1024.Idx → EReal := fun i =>
  Spec.outF (Wm m c) (Cm m c) (Xb m c (fin32 (i 0).val)) (fin64 (i 1).val) (fin1024 (i 2).val)

theorem idx_facts3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

/-- What a batch entry's last tile writes back is that entry's block of the descriptors. -/
theorem flushed3_eq (t : Fin cfg0.N) (hf : (cfg0.win 3).flush t = true) :
    (dats m 0 c).flushed 3 t = ((cfg0.win 3).blk t).view.read (Elt Ideal) (G3 m c) := by
  have h3 : t.val % 4 = 3 := (flush0_3 t).mp hf
  have h0 : ¬t.val % 4 = 0 := by omega
  have hN : t.val < 128 := lt_of_lt_of_eq t.isLt (show cfg0.N = 128 from N_0)
  obtain ⟨e0, e1, e2⟩ := idx_facts3 t
  show (cfg0.win 3).cut (grid0.coords t) ((dats m 0 c).after 3 t) = _
  rw [after0_3]
  funext y
  obtain ⟨u, k, d, rfl⟩ : ∃ (u : Fin 1) (k : Fin 64) (d : Fin 1024), y = ix3 u k d := ⟨y 0, y 1, y 2, eq_ix3 y⟩
  show ((outsAt0 m c t.val t.isLt).1 : Vec Ideal S1x64x1024 .f32) (ix3 u k d)
    = G3 m c (((cfg0.win 3).blk t).view.emb (ix3 u k d))
  rw [out_C m c t h0 h3 u k d]
  have hb : fin32 ((((cfg0.win 3).blk t).view.emb (ix3 u k d)) 0).val = batchOf t.val := Fin.ext (by
    show (win0_3.index t 0 * 1 + 1 * u.val) % 32 = t.val / 4 % 32
    rw [e0]; have := u.isLt; omega)
  have hk : fin64 ((((cfg0.win 3).blk t).view.emb (ix3 u k d)) 1).val = k := Fin.ext (by
    show (win0_3.index t 1 * 64 + 1 * k.val) % 64 = k.val
    rw [e1]; have := k.isLt; omega)
  have hd : fin1024 ((((cfg0.win 3).blk t).view.emb (ix3 u k d)) 2).val = d := Fin.ext (by
    show (win0_3.index t 2 * 1024 + 1 * d.val) % 1024 = d.val
    rw [e2]; have := d.isLt; omega)
  unfold G3
  rw [hb, hk, hd]

/-- An index of the array is in point `t`'s block iff each coordinate is in the block's range on its axis. -/
theorem mem_blk3 (t : Fin cfg0.N) (i : S32x64x1024.Idx) :
    i ∈ ((cfg0.win 3).blk t).view.set ↔ ∀ a : Fin 3, win0_3.index t a * S1x64x1024.size a ≤ (i a).val
      ∧ (i a).val < win0_3.index t a * S1x64x1024.size a + S1x64x1024.size a := by
  show i ∈ ((View.whole main_v0).slice (win0_3.rect t)).set ↔ _
  rw [View.set_slice_whole, Rect.mem_set_unit]
  exact Iff.rfl

/-- Every index of the array is in the block some entry's last tile writes back. -/
theorem cover3 (i : S32x64x1024.Idx) :
    ∃ t : Fin cfg0.N, (cfg0.win 3).flush t = true ∧ i ∈ ((cfg0.win 3).blk t).view.set := by
  have hi0 : (i 0).val < 32 := (i 0).isLt
  have hi1 : (i 1).val < 64 := (i 1).isLt
  have hi2 : (i 2).val < 1024 := (i 2).isLt
  have hN : cfg0.N = 128 := N_0
  let t : Fin cfg0.N := ⟨4 * (i 0).val + 3, by rw [hN]; omega⟩
  have ht : t.val = 4 * (i 0).val + 3 := rfl
  obtain ⟨e0, e1, e2⟩ := idx_facts3 t
  refine ⟨t, (flush0_3 t).mpr (by rw [ht]; omega), ?_⟩
  rw [mem_blk3]
  intro a
  match a with
  | ⟨0, _⟩ =>
    show win0_3.index t 0 * 1 ≤ (i 0).val ∧ (i 0).val < win0_3.index t 0 * 1 + 1
    rw [e0, ht]; omega
  | ⟨1, _⟩ =>
    show win0_3.index t 1 * 64 ≤ (i 1).val ∧ (i 1).val < win0_3.index t 1 * 64 + 64
    rw [e1]; omega
  | ⟨2, _⟩ =>
    show win0_3.index t 2 * 1024 ≤ (i 2).val ∧ (i 2).val < win0_3.index t 2 * 1024 + 1024
    rw [e2]; omega

/-- The [32, 64, 1024] array after the region. -/
theorem final3 : (dats m 0 c).arrAt 3 cfg0.N = G3 m c :=
  (dats m 0 c).arrAt_eq_of_cover 3 (G3 m c) (flushed3_eq m c) (cover3)

/-- The program's last line lays the array out row after row: the specification's result. -/
theorem laidout_eq :
    shapeCast S32x65536 (G3 m c) shapeCasts_S32x64x1024_S32x65536
      = Spec.G (m ((c : Thread nD τ).loc main_arg0)) (m ((c : Thread nD τ).loc main_arg1)) (m ((c : Thread nD τ).loc main_arg2)) := by
  funext i
  obtain ⟨b, j, rfl⟩ : ∃ (b : Fin 32) (j : Fin 65536), i = ix2 b j := ⟨i 0, i 1, eq_ix2 i⟩
  have hj := j.isLt
  have hbb := b.isLt
  refine (shapeCast_apply (G3 m c) shapeCasts_S32x64x1024_S32x65536 (ix2 b j)
    (ix3 b (⟨j.val / 1024, by omega⟩ : Fin 64) (⟨j.val % 1024, Nat.mod_lt _ (by norm_num)⟩ : Fin 1024)) ?_).trans ?_
  · rw [Shape.rowMajor_val_three, Shape.rowMajor_val_two]
    show (b.val * 64 + j.val / 1024) * 1024 + j.val % 1024 = b.val * 65536 + j.val
    omega
  · have hb : fin32 b.val = b := Fin.ext (Nat.mod_eq_of_lt b.isLt)
    have hk : fin64 (j.val / 1024) = (⟨j.val / 1024, by omega⟩ : Fin 64) := Fin.ext (Nat.mod_eq_of_lt (by omega))
    have hd : fin1024 (j.val % 1024) = (⟨j.val % 1024, Nat.mod_lt _ (by norm_num)⟩ : Fin 1024) :=
      Fin.ext (Nat.mod_eq_of_lt (Nat.mod_lt _ (by norm_num)))
    show Spec.outF (Wm m c) (Cm m c) (Xb m c (fin32 b.val)) (fin64 (j.val / 1024)) (fin1024 (j.val % 1024)) = _
    rw [hb, hk, hd]
    rfl

/-- The result buffer after the program's last line. -/
theorem tail_eq :
    Pipeline.afterTail₀ cfgs (dats m) 0 (V0 m) [hostOps1] c main_v1
      = shapeCast S32x65536 (G3 m c) shapeCasts_S32x64x1024_S32x65536 := by
  unfold Pipeline.afterTail₀
  show StableHlo.after hostOps1 _ (Proc.devRef .tc main_v1) = _
  after_results
  have hw : Pipeline.withArrays (cfgs 0).spec c (V0 m c) (fun w => (dats m 0 c).arrAt w (cfgs 0).N)
      (Proc.devRef .tc main_v0) = G3 m c :=
    (Pipeline.withArrays_arr spec0 launch0.win.arr_inj c _ _ 3).trans (final3 m c)
  rw [hw]
  rfl

/-- The kernel's run, read: every weakly fair execution ends with the result buffer at the specification's result
    of the argument arrays, and the arguments unchanged. -/
theorem run : θ_run defs (onTc (τ := τ) (main (F := Ideal))) ⟨m, fun _ => 0, ρ⟩ fun r => ∀ c : Dev nD,
      r.2.mem ((c : Thread nD τ).loc main_v1)
        = Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v1 (Pipeline.mem_restRefs_of main_v1 rfl (by decide))).trans ((tail_eq m c).trans (laidout_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelRun

end
-- ==== Proof.RefValue.lean ====
/-
  The reference program's result is the specification function.

  The reference is read one operation at a time.  Each lemma below reads one stage at explicit coordinates
  (batch entry b, frame m, cluster k, feature d) and identifies it with the matching function of the specification:
  the clamped norm of a frame, the scaled frame, its scores, their maximum, the soft assignment, the two sums over
  the frames, the residual, its row-wise scaling, and last the scaling of the whole residual as one long vector.
-/
import proofs.«176846_j63977832841863_1_alg».proof.Proof.Gen.ReferenceIdeal.Read
import proofs.«176846_j63977832841863_1_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-- The contents of the frames array at the extended reals. -/
abbrev XT := (⟨S32x2048x1024, .f32⟩ : BufTy).Contents (Elt Ideal)
/-- The contents of a [64, 1024] array at the extended reals. -/
abbrev WT := (⟨S64x1024, .f32⟩ : BufTy).Contents (Elt Ideal)

/-! ## A frame over its clamped norm -/

/-- The clamped norm of frame (b, m). -/
theorem v5_at (x0 : XT) (b : Fin 32) (m : Fin 2048) :
    val_main_v5 (F := Ideal) x0 (ix3 b m (0 : Fin 1)) = Spec.nrm (Spec.frames x0 b m) := by
  have e2 : idx_main_v2 (ix3 b m (0 : Fin 1)) = ix2 b m := funext fun a => by
    match a with | ⟨0, _⟩ => rfl | ⟨1, _⟩ => rfl
  have e1 : ∀ k : Fin 1024, idx_main_v1 (ix2 b m) k = ix3 b m k := fun k => funext fun a => by
    match a with | ⟨0, _⟩ => rfl | ⟨1, _⟩ => rfl | ⟨2, _⟩ => rfl
  rw [val_main_v5_apply, val_main_v3_apply, val_main_v2_apply, e2, val_main_v1_apply, val_main_v4_apply,
    val_main_cst_0_apply, val_main_cst_apply]
  simp only [e1, val_main_v0_apply, Ideal.maximumf_def, Ideal.hostUnary_sqrt_def, Ideal.ofBits_def, Ideal.mulf_def,
    Ideal.ofBits_zero_f32, zero_add]
  rfl

/-- The scaled frame (b, m) at feature d. -/
theorem v7_at (x0 : XT) (b : Fin 32) (m : Fin 2048) (d : Fin 1024) :
    val_main_v7 (F := Ideal) x0 (ix3 b m d) = Spec.unit (Spec.frames x0 b m) d := by
  have e6 : idx_main_v6 (ix3 b m d) = ix3 b m (0 : Fin 1) := funext fun a => by
    match a with | ⟨0, _⟩ => rfl | ⟨1, _⟩ => rfl | ⟨2, _⟩ => rfl
  rw [val_main_v7_apply, val_main_v6_apply, e6, v5_at, Ideal.hostDivf_def]
  rfl

/-! ## The scores and their maximum -/

/-- The score of frame (b, m) against cluster k. -/
theorem v8_at (x0 : XT) (x1 : WT) (b : Fin 32) (m : Fin 2048) (k : Fin 64) :
    val_main_v8 (F := Ideal) x0 x1 (ix3 b m k) = Spec.logit (Spec.mat x1) (Spec.frames x0 b m) k := by
  have el : ∀ d : Fin 1024, lidx_main_v8 (ix3 b m k) d = ix3 b m d := fun d => funext fun a => by
    match a with | ⟨0, _⟩ => rfl | ⟨1, _⟩ => rfl | ⟨2, _⟩ => rfl
  have er : ∀ d : Fin 1024, ridx_main_v8 (ix3 b m k) d = ix2 k d := fun d => funext fun a => by
    match a with | ⟨0, _⟩ => rfl | ⟨1, _⟩ => rfl
  rw [val_main_v8_apply]
  simp only [el, er, v7_at]
  rfl

/-- The maximum, from minus infinity, of the scores of frame (b, m). -/
theorem v9_at (x0 : XT) (x1 : WT) (b : Fin 32) (m : Fin 2048) :
    val_main_v9 (F := Ideal) x0 x1 (ix2 b m) = Spec.rowmax (Spec.logit (Spec.mat x1) (Spec.frames x0 b m)) := by
  have h : S32x2048x64.Reduces [2] S32x2048 := by decide
  unfold val_main_v9
  rw [Host.reduce_eq_fold_single FloatOps.maximumf _ _ reducesTo_S32x2048x64_S32x2048_d2 h h_S_]
  have hf : (val_main_v8 (F := Ideal) x0 x1 ∘ h.lift (ix2 b m))
      = Spec.logit (Spec.mat x1) (Spec.frames x0 b m) := funext fun k => by
    have ek : h.lift (ix2 b m) k = ix3 b m (⟨k.val, k.isLt⟩ : Fin 64) := funext fun a => Fin.ext (by
      match a with | ⟨0, _⟩ => rfl | ⟨1, _⟩ => rfl | ⟨2, _⟩ => rfl)
    show val_main_v8 (F := Ideal) x0 x1 (h.lift (ix2 b m) k) = _
    rw [ek, v8_at]
    rfl
  rw [hf]
  rfl

/-- Comparing with minus infinity once more leaves the maximum as it is. -/
theorem v11_at (x0 : XT) (x1 : WT) (b : Fin 32) (m : Fin 2048) :
    val_main_v11 (F := Ideal) x0 x1 (ix2 b m) = Spec.rowmax (Spec.logit (Spec.mat x1) (Spec.frames x0 b m)) := by
  rw [val_main_v11_apply, v9_at, val_main_v10_apply, val_main_cst_2_apply, Ideal.maximumf_def, Ideal.ofBits_def]
  exact Spec.max_ninf_rowmax _

/-! ## The soft assignment -/

/-- The exponential of a score less the maximum. -/
theorem v15_at (x0 : XT) (x1 : WT) (b : Fin 32) (m : Fin 2048) (k : Fin 64) :
    val_main_v15 (F := Ideal) x0 x1 (ix3 b m k)
      = Ideal.exp (Spec.logit (Spec.mat x1) (Spec.frames x0 b m) k
          - Spec.rowmax (Spec.logit (Spec.mat x1) (Spec.frames x0 b m))) := by
  have e13 : idx_main_v13 (ix3 b m k) = ix3 b m (0 : Fin 1) := funext fun a => by
    match a with | ⟨0, _⟩ => rfl | ⟨1, _⟩ => rfl | ⟨2, _⟩ => rfl
  have e12 : idx_main_v12 (ix3 b m (0 : Fin 1)) = ix2 b m := funext fun a => by
    match a with | ⟨0, _⟩ => rfl | ⟨1, _⟩ => rfl
  rw [val_main_v15_apply, val_main_v14_apply, val_main_v13_apply, e13, val_main_v12_apply, e12, v11_at, v8_at,
    Ideal.hostUnary_exp_def, Ideal.subf_def]

/-- The soft assignment of frame (b, m) to cluster k. -/
theorem v19_at (x0 : XT) (x1 : WT) (b : Fin 32) (m : Fin 2048) (k : Fin 64) :
    val_main_v19 (F := Ideal) x0 x1 (ix3 b m k) = Spec.assign (Spec.mat x1) (Spec.frames x0 b m) k := by
  have e18 : idx_main_v18 (ix3 b m k) = ix3 b m (0 : Fin 1) := funext fun a => by
    match a with | ⟨0, _⟩ => rfl | ⟨1, _⟩ => rfl | ⟨2, _⟩ => rfl
  have e17 : idx_main_v17 (ix3 b m (0 : Fin 1)) = ix2 b m := funext fun a => by
    match a with | ⟨0, _⟩ => rfl | ⟨1, _⟩ => rfl
  have e16 : ∀ k' : Fin 64, idx_main_v16 (ix2 b m) k' = ix3 b m k' := fun k' => funext fun a => by
    match a with | ⟨0, _⟩ => rfl | ⟨1, _⟩ => rfl | ⟨2, _⟩ => rfl
  rw [val_main_v19_apply, val_main_v18_apply, e18, val_main_v17_apply, e17, val_main_v16_apply, val_main_cst_3_apply,
    Ideal.hostDivf_def, Ideal.ofBits_def, Ideal.ofBits_zero_f32, zero_add]
  simp only [e16, v15_at]
  rfl

/-! ## The sums over the frames and the residual -/

/-- The assignment-weighted sum of the scaled frames of batch entry b. -/
theorem v20_at (x0 : XT) (x1 : WT) (b : Fin 32) (k : Fin 64) (d : Fin 1024) :
    val_main_v20 (F := Ideal) x0 x1 (ix3 b k d) = Spec.accum (Spec.mat x1) (Spec.frames x0 b) k d := by
  have el : ∀ m : Fin 2048, lidx_main_v20 (ix3 b k d) m = ix3 b m k := fun m => funext fun a => by
    match a with | ⟨0, _⟩ => rfl | ⟨1, _⟩ => rfl | ⟨2, _⟩ => rfl
  have er : ∀ m : Fin 2048, ridx_main_v20 (ix3 b k d) m = ix3 b m d := fun m => funext fun a => by
    match a with | ⟨0, _⟩ => rfl | ⟨1, _⟩ => rfl | ⟨2, _⟩ => rfl
  rw [val_main_v20_apply]
  simp only [el, er, v19_at, v7_at]
  rfl

/-- The total assignment to cluster k over the frames of batch entry b. -/
theorem v21_at (x0 : XT) (x1 : WT) (b : Fin 32) (k : Fin 64) :
    val_main_v21 (F := Ideal) x0 x1 (ix2 b k) = Spec.asum (Spec.mat x1) (Spec.frames x0 b) k := by
  have e21 : ∀ m : Fin 2048, idx_main_v21 (ix2 b k) m = ix3 b m k := fun m => funext fun a => by
    match a with | ⟨0, _⟩ => rfl | ⟨1, _⟩ => rfl | ⟨2, _⟩ => rfl
  rw [val_main_v21_apply, val_main_cst_4_apply, Ideal.ofBits_def, Ideal.ofBits_zero_f32, zero_add]
  simp only [e21, v19_at]
  rfl

/-- The residual against the centroids. -/
theorem v27_at (x0 : XT) (x1 x2 : WT) (b : Fin 32) (k : Fin 64) (d : Fin 1024) :
    val_main_v27 (F := Ideal) x0 x1 x2 (ix3 b k d) = Spec.raw (Spec.mat x1) (Spec.mat x2) (Spec.frames x0 b) k d := by
  have e24 : idx_main_v24 (ix3 b k d) = ix3 b k (0 : Fin 1) := funext fun a => by
    match a with | ⟨0, _⟩ => rfl | ⟨1, _⟩ => rfl | ⟨2, _⟩ => rfl
  have e22 : idx_main_v22 (ix3 b k (0 : Fin 1)) = ix2 b k := funext fun a => by
    match a with | ⟨0, _⟩ => rfl | ⟨1, _⟩ => rfl
  have e25 : idx_main_v25 (ix3 b k d) = ix3 (0 : Fin 1) k d := funext fun a => by
    match a with | ⟨0, _⟩ => rfl | ⟨1, _⟩ => rfl | ⟨2, _⟩ => rfl
  have e23 : idx_main_v23 (ix3 (0 : Fin 1) k d) = ix2 k d := funext fun a => by
    match a with | ⟨0, _⟩ => rfl | ⟨1, _⟩ => rfl
  rw [val_main_v27_apply, val_main_v26_apply, val_main_v24_apply, e24, val_main_v22_apply, e22, v21_at,
    val_main_v25_apply, e25, val_main_v23_apply, e23, v20_at, Ideal.subf_def, Ideal.mulf_def]
  rfl

/-! ## The row-wise scaling of the residual -/

/-- The clamped norm of row k of the residual. -/
theorem v33_at (x0 : XT) (x1 x2 : WT) (b : Fin 32) (k : Fin 64) :
    val_main_v33 (F := Ideal) x0 x1 x2 (ix3 b k (0 : Fin 1))
      = Spec.nrm (Spec.raw (Spec.mat x1) (Spec.mat x2) (Spec.frames x0 b) k) := by
  have e30 : idx_main_v30 (ix3 b k (0 : Fin 1)) = ix2 b k := funext fun a => by
    match a with | ⟨0, _⟩ => rfl | ⟨1, _⟩ => rfl
  have e29 : ∀ d : Fin 1024, idx_main_v29 (ix2 b k) d = ix3 b k d := fun d => funext fun a => by
    match a with | ⟨0, _⟩ => rfl | ⟨1, _⟩ => rfl | ⟨2, _⟩ => rfl
  rw [val_main_v33_apply, val_main_v31_apply, val_main_v30_apply, e30, val_main_v29_apply, val_main_v32_apply,
    val_main_cst_6_apply, val_main_cst_5_apply]
  simp only [e29, val_main_v28_apply, v27_at, Ideal.maximumf_def, Ideal.hostUnary_sqrt_def, Ideal.ofBits_def,
    Ideal.mulf_def, Ideal.ofBits_zero_f32, zero_add]
  rfl

/-- Row k of the residual over its clamped norm. -/
theorem v35_at (x0 : XT) (x1 x2 : WT) (b : Fin 32) (k : Fin 64) (d : Fin 1024) :
    val_main_v35 (F := Ideal) x0 x1 x2 (ix3 b k d) = Spec.vlad (Spec.mat x1) (Spec.mat x2) (Spec.frames x0 b) k d := by
  have e34 : idx_main_v34 (ix3 b k d) = ix3 b k (0 : Fin 1) := funext fun a => by
    match a with | ⟨0, _⟩ => rfl | ⟨1, _⟩ => rfl | ⟨2, _⟩ => rfl
  rw [val_main_v35_apply, val_main_v34_apply, e34, v33_at, v27_at, Ideal.hostDivf_def]
  rfl

/-! ## The scaled residual as one long vector -/

/-- The row of position j of a [64, 1024] array laid out row after row. -/
def rowOf (j : Fin 65536) : Fin 64 := ⟨j.val / 1024, by have := j.isLt; omega⟩
/-- The column of position j. -/
def colOf (j : Fin 65536) : Fin 1024 := ⟨j.val % 1024, Nat.mod_lt _ (by norm_num)⟩

/-- Position j of the long vector of batch entry b is entry (j / 1024, j % 1024) of the scaled residual. -/
theorem v36_at (x0 : XT) (x1 x2 : WT) (b : Fin 32) (j : Fin 65536) :
    val_main_v36 (F := Ideal) x0 x1 x2 (ix2 b j)
      = Spec.vlad (Spec.mat x1) (Spec.mat x2) (Spec.frames x0 b) (rowOf j) (colOf j) := by
  have e36 : idx_main_v36 (ix2 b j) = ix3 b (rowOf j) (colOf j) := funext fun a => Fin.ext (by
    have hb := b.isLt
    have hj := j.isLt
    match a with
    | ⟨0, _⟩ => show (b.val * 65536 + j.val) / 65536 = b.val; omega
    | ⟨1, _⟩ => show (b.val * 65536 + j.val) / 1024 % 64 = j.val / 1024; omega
    | ⟨2, _⟩ => show (b.val * 65536 + j.val) % 1024 = j.val % 1024; omega)
  rw [val_main_v36_apply, e36, v35_at]

/-- The clamped norm of the long vector of batch entry b, its squares summed row by row. -/
theorem v42_at (x0 : XT) (x1 x2 : WT) (b : Fin 32) :
    val_main_v42 (F := Ideal) x0 x1 x2 (ix2 b (0 : Fin 1)) = Spec.gnorm (Spec.mat x1) (Spec.mat x2) (Spec.frames x0 b) := by
  have e39 : idx_main_v39 (ix2 b (0 : Fin 1)) = ix1 b := funext fun a => by
    match a with | ⟨0, _⟩ => rfl
  have e38 : ∀ j : Fin 65536, idx_main_v38 (ix1 b) j = ix2 b j := fun j => funext fun a => by
    match a with | ⟨0, _⟩ => rfl | ⟨1, _⟩ => rfl
  rw [val_main_v42_apply, val_main_v40_apply, val_main_v39_apply, e39, val_main_v38_apply, val_main_v41_apply,
    val_main_cst_8_apply, val_main_cst_7_apply]
  simp only [e38, val_main_v37_apply, v36_at, Ideal.maximumf_def, Ideal.hostUnary_sqrt_def, Ideal.ofBits_def,
    Ideal.mulf_def, Ideal.ofBits_zero_f32, zero_add]
  rw [Spec.sum_flat (fun k d => Spec.vlad (Spec.mat x1) (Spec.mat x2) (Spec.frames x0 b) k d
      * Spec.vlad (Spec.mat x1) (Spec.mat x2) (Spec.frames x0 b) k d) rowOf colOf (fun _ => rfl) (fun _ => rfl)]
  rfl

/-! ## The whole result -/

/-- The reference's result, at the extended reals, is the specification function. -/
theorem ref_is_G (x0 : (⟨S32x2048x1024, .f32⟩ : BufTy).Contents (Elt Ideal))
    (x1 x2 : (⟨S64x1024, .f32⟩ : BufTy).Contents (Elt Ideal)) :
    Cert.ReferenceIdeal.Read.val_main_v44 (F := Ideal) x0 x1 x2 = Cert.Spec.G x0 x1 x2 := by
  funext i
  obtain ⟨b, j, rfl⟩ : ∃ (b : Fin 32) (j : Fin 65536), i = ix2 b j := ⟨i 0, i 1, eq_ix2 i⟩
  have e43 : idx_main_v43 (ix2 b j) = ix2 b (0 : Fin 1) := funext fun a => by
    match a with | ⟨0, _⟩ => rfl | ⟨1, _⟩ => rfl
  rw [val_main_v44_apply, val_main_v43_apply, e43, v42_at, v36_at, Ideal.hostDivf_def]
  rfl

end Cert.RefValue

end
-- ==== Proof.lean ====
/-
  The certificate's claims.

  The kernel aggregates, for each of 32 batch entries, 2048 frames of 1024 features into a [64, 1024] descriptor:
  every frame is scaled by its clamped Euclidean norm, softly assigned to 64 clusters by a softmax of its scores
  against the cluster weights, the assignment-weighted frames and the assignments are summed over the frames, the
  assignment totals times the centroids are subtracted, and the residual is scaled row by row and then as a whole
  by its clamped norms.  The kernel walks the frames in four tiles of 512 and keeps the two sums in accumulators;
  the reference sums over all frames at once and takes the last norm over the descriptor laid out as one vector of
  65536 entries.  Over the extended reals every operation of the two programs is the same function, and the sums
  differ only in how they are grouped; addition there is commutative and associative, so the two results are
  equal, and no finiteness of the inputs is used.

  The three frame claims are the generated frame runs (the reference's is its generated run with the result
  dropped); the idealization rewrote nothing; the equivalence puts the kernel's run (its result array read off
  the frame run: `Cert.KernelRun.run`) beside the reference's generated run, both ending at `Cert.Spec.G` of the
  argument arrays (`Cert.RefValue.ref_is_G` for the reference).
-/
import proofs.«176846_j63977832841863_1_alg».proof.Defs
import proofs.«176846_j63977832841863_1_alg».proof.Proof.Gen.Kernel
import proofs.«176846_j63977832841863_1_alg».proof.Proof.Gen.Kernel.Skeleton
import proofs.«176846_j63977832841863_1_alg».proof.Proof.Gen.Kernel.Launch
import proofs.«176846_j63977832841863_1_alg».proof.Proof.Gen.Kernel.Points
import proofs.«176846_j63977832841863_1_alg».proof.Proof.Gen.Kernel.Frame
import proofs.«176846_j63977832841863_1_alg».proof.Proof.Gen.KernelIdeal
import proofs.«176846_j63977832841863_1_alg».proof.Proof.Gen.KernelIdeal.Skeleton
import proofs.«176846_j63977832841863_1_alg».proof.Proof.Gen.KernelIdeal.Launch
import proofs.«176846_j63977832841863_1_alg».proof.Proof.Gen.KernelIdeal.Points
import proofs.«176846_j63977832841863_1_alg».proof.Proof.Gen.KernelIdeal.Frame
import proofs.«176846_j63977832841863_1_alg».proof.Proof.Gen.ReferenceIdeal
import proofs.«176846_j63977832841863_1_alg».proof.Proof.Gen.ReferenceIdeal.Run
import proofs.«176846_j63977832841863_1_alg».proof.Proof.Gen.ReferenceIdeal.Read
import proofs.«176846_j63977832841863_1_alg».proof.Proof.Gen.Pre_finite_inputs
import proofs.«176846_j63977832841863_1_alg».proof.Proof.KernelRun
import proofs.«176846_j63977832841863_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Over the extended reals both programs end with the specification's result of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.RefValue.ref_is_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
